-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 70
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000x128, .f32⟩
  | .hbm, ⟨39, _⟩ => ⟨S_, .f32⟩
  | .hbm, ⟨40, _⟩ => ⟨S100000x128, .f32⟩
  | .hbm, ⟨41, _⟩ => ⟨S1700000x1, .i32⟩
  | .hbm, ⟨42, _⟩ => ⟨S100000x128, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x64, .f32⟩
  | .hbm, ⟨60, _⟩ => ⟨S_, .f32⟩
  | .hbm, ⟨61, _⟩ => ⟨S100000x64, .f32⟩
  | .hbm, ⟨62, _⟩ => ⟨S1700000x1, .i32⟩
  | .hbm, ⟨63, _⟩ => ⟨S100000x64, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_v30) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S100000, .i32⟩
  | .hbm, ⟨67, _⟩ => ⟨S1700000, .i32⟩
  | .hbm, ⟨68, _⟩ => ⟨S1700000, .i32⟩
  | .hbm, ⟨69, _⟩ => ⟨S_, .f32⟩
  | .hbm, ⟨70, _⟩ => ⟨S1700000, .f32⟩
  | .hbm, ⟨71, _⟩ => ⟨S_, .f32⟩
  | .hbm, ⟨72, _⟩ => ⟨S100000, .f32⟩
  | .hbm, ⟨73, _⟩ => ⟨S1700000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .i1⟩
  | .hbm, ⟨78, _⟩ => ⟨S100000, .f32⟩
  | .hbm, ⟨79, _⟩ => ⟨S_, .f32⟩
  | .hbm, ⟨80, _⟩ => ⟨S_, .f32⟩
  | .hbm, ⟨81, _⟩ => ⟨S100000, .f32⟩
  | .hbm, ⟨82, _⟩ => ⟨S100000, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000, .f32⟩
  | .hbm, ⟨101, _⟩ => ⟨S1700000, .f32⟩
  | .hbm, ⟨102, _⟩ => ⟨S_, .i32⟩
  | .hbm, ⟨103, _⟩ => ⟨S1700000, .i32⟩
  | .hbm, ⟨104, _⟩ => ⟨S1700000, .i1⟩
  | .hbm, ⟨105, _⟩ => ⟨S_, .i32⟩
  | .hbm, ⟨106, _⟩ => ⟨S1700000, .i32⟩
  | .hbm, ⟨107, _⟩ => ⟨S1700000, .i32⟩
  | .hbm, ⟨108, _⟩ => ⟨S1700000, .i32⟩
  | .hbm, ⟨109, _⟩ => ⟨S1700000x1, .i32⟩
  | .hbm, ⟨110, _⟩ => ⟨S1700000x128, .f32⟩
  | .hbm, ⟨111, _⟩ => ⟨S1700000x1, .f32⟩
  | .hbm, ⟨112, _⟩ => ⟨S1700000x128, .f32⟩
  | .hbm, ⟨113, _⟩ => ⟨S1700000x128, .f32⟩
  | .hbm, ⟨114, _⟩ => ⟨S_, .f32⟩
  | .hbm, ⟨115, _⟩ => ⟨S100000x128, .f32⟩
  | .hbm, ⟨116, _⟩ => ⟨S1700000x1, .i32⟩
  | .hbm, ⟨117, _⟩ => ⟨S100000x128, .f32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_9 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_call1_v0 : Ref sig .tc := ⟨.hbm, 80, rfl⟩
abbrev main_call1_v1 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_c_14 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_15 : Ref sig .tc := ⟨.hbm, 92, rfl⟩
abbrev main_v65 : Ref sig .tc := ⟨.hbm, 93, rfl⟩
abbrev main_v66 : Ref sig .tc := ⟨.hbm, 94, rfl⟩
abbrev main_c_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_c_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RSpec.lean ====
/-
  What the reference program computes, as one function of its six argument arrays.

  With `s` the source words and `d` the target words of the edges followed by one loop per node, `deg n` the number of
  edges whose target is `n`, `dinv n = deg n ^ (-1/2)` (zero where `deg n` is not positive) and the edge weight
  `norm e = dinv (s e) · dinv (d e)`, one propagation of an `[N, 128]` array `h` gathers the source rows, multiplies row `e`
  by `norm e` and adds the rows up at their targets. The program is two layers: propagate, then `· W + b`.
  `res_eq` says the run's result term is this function of the arguments.
-/
import proofs.«111670_j49134425867022_2_alg».proof.Proof.RefRunPatched
import Idealize.ShloMosaic.PureOps.Ideal

noncomputable section

namespace Cert.ReferenceIdeal.RSpec

open Cert.ReferenceIdeal Cert.ReferenceIdeal.Facts₀ Idealize.ShloMosaic Idealize.ShloMosaic.TcCoe Idealize.SL.Sem

/-- The edges' source words followed by the nodes' own numbers. -/
def srcW (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩,
    ⟨S100000, iotaInDim S100000 32 0⟩] concatenates_S1600000_S100000_S1700000_d0

/-- The edges' target words followed by the nodes' own numbers. -/
def tgtW (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩,
    ⟨S100000, iotaInDim S100000 32 0⟩] concatenates_S1600000_S100000_S1700000_d0

/-- Index words as a gather reads them: a negative one moved up by the number of nodes; as a column. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The rows a propagation adds onto: the target words as they are, as a column. -/
def colT (a1 : IVec S2x1600000 32) : IVec S1700000x1 32 :=
  broadcastInDim S1700000x1 ![0] bcast_S1700000_S1700000x1_0 (tgtW a1)

/-- A flat array of zeros. -/
def zeros1 : FVec Ideal S100000 .f32 :=
  broadcastInDim S100000 ![] bcast_S_S100000 (constant (F := Ideal) S_ .f32 0x00000000#32)

/-- The number of edges landing on each node. -/
def deg (a1 : IVec S2x1600000 32) : FVec Ideal S100000 .f32 :=
  Host.scatterAdd scatter_S100000_S1700000x1_S1700000_n_0_0_1 zeros1 (colT a1)
    (broadcastInDim S1700000 ![] bcast_S_S1700000 (constant (F := Ideal) S_ .f32 0x3F800000#32))

/-- The normalisation: `deg ^ (-1/2)` where `deg` is positive, zero elsewhere. -/
def dinv (a1 : IVec S2x1600000 32) : FVec Ideal S100000 .f32 :=
  select (cmpf .ogt (deg a1) zeros1) (Host.rsqrt (deg a1))
    (broadcastInDim S100000 ![] bcast_S_S100000 (id (constant (F := Ideal) S_ .f32 0x00000000#32)))

/-- The edges' weights: the normalisation at the source row times the normalisation at the target row. -/
def norm (a1 : IVec S2x1600000 32) : FVec Ideal S1700000 .f32 :=
  mulf (Host.gather gather_S100000_S1700000x1_S1700000_n_0_n_n_0_1_1 (dinv a1) (wrapped (srcW a1)))
    (Host.gather gather_S100000_S1700000x1_S1700000_n_0_n_n_0_1_1 (dinv a1) (wrapped (tgtW a1)))

/-- The weights spread along 128 columns. -/
def normB (a1 : IVec S2x1600000 32) : FVec Ideal S1700000x128 .f32 :=
  broadcastInDim S1700000x128 ![0, 1] bcast_S1700000x1_S1700000x128_0_1 (broadcastInDim S1700000x1 ![0] bcast_S1700000_S1700000x1_0 (norm a1))

/-- One propagation: source rows gathered, weighted, added up at the target rows. -/
def hop (a1 : IVec S2x1600000 32) (h : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32)) (colT a1)
    (mulf (Host.gather gather_S100000x128_S1700000x1_S1700000x128_1_0_n_n_0_1_1128 h (wrapped (srcW a1))) (normB a1))

/-- The first layer. -/
def layer1 (x0 : FVec Ideal S100000x128 .f32) (a1 : IVec S2x1600000 32) (w1 : FVec Ideal S128x128 .f32) (b1 : FVec Ideal S128 .f32) :
    FVec Ideal S100000x128 .f32 :=
  addf (Host.dotGeneral dot_S100000x128_S128x128_S100000x128_1_0_0_1_n_n none (hop a1 x0) w1)
    (broadcastInDim S100000x128 ![0, 1] bcast_S1x128_S100000x128_0_1 (broadcastInDim S1x128 ![1] bcast_S128_S1x128_1 b1))

/-- The program's result: the second layer of the first. -/
def out (x0 : FVec Ideal S100000x128 .f32) (a1 : IVec S2x1600000 32) (w1 : FVec Ideal S128x128 .f32) (b1 : FVec Ideal S128 .f32)
    (w2 : FVec Ideal S128x64 .f32) (b2 : FVec Ideal S64 .f32) : FVec Ideal S100000x64 .f32 :=
  addf (Host.dotGeneral dot_S100000x128_S128x64_S100000x64_1_0_0_1_n_n none (hop a1 (layer1 x0 a1 w1 b1)) w2)
    (broadcastInDim S100000x64 ![0, 1] bcast_S1x64_S100000x64_0_1 (broadcastInDim S1x64 ![1] bcast_S64_S1x64_1 b2))

/-- The run's result term is `out` of the argument arrays: the same operations, with each shared value written once. -/
theorem res_eq (m : (ℓ : Loc nD τ sig) → Buf (Elt Ideal) ℓ) (c : Dev nD) :
    Cert.ReferenceIdeal.ValueP.res_main_v89 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end Cert.ReferenceIdeal.RSpec

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«111670_j49134425867022_2_alg».proof.Proof.LibRowOps
import proofs.«111670_j49134425867022_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.LibDense.lean ====
/-
  A dense layer read at an index.

  For an `[N, K]` array `a`, a `[K, J]` matrix `w` and a `[J]` row `b` of extended reals:

  * `project a w` is the matrix product, entry `(n, j) = ∑ k, a (n, k) · w (k, j)`;
  * `affine a w b` adds the row `b` to every row of it, entry `(n, j) = ∑ k, a (n, k) · w (k, j) + b j`.

  Both are stated for every `N`, `K`, `J`; at an index built from its coordinates they unfold by `rfl`.
-/
import Idealize.ShloMosaic.PureOps.Ideal
import Idealize.ShloMosaic.Lib.ValueIdx

noncomputable section

open scoped BigOperators

namespace Cert.Lib.Dense

open Idealize.ShloMosaic Idealize.ShloMosaic.ValueIdx

variable {N K J : Nat}

/-- The matrix product of an `[N, K]` array with a `[K, J]` matrix: entry `(n, j)` is `∑ k, a (n, k) · w (k, j)`. -/
def project (a : (⟨2, ![N, K]⟩ : Shape).Idx → EReal) (w : (⟨2, ![K, J]⟩ : Shape).Idx → EReal) :
    (⟨2, ![N, J]⟩ : Shape).Idx → EReal :=
  fun y => ∑ k : Fin K, a (ix2 (⟨(y 0).val, idx2_lt0 y⟩ : Fin N) k) * w (ix2 k (⟨(y 1).val, idx2_lt1 y⟩ : Fin J))

/-- The product with the row `b` added to each of its rows: entry `(n, j)` is `∑ k, a (n, k) · w (k, j) + b j`. -/
def affine (a : (⟨2, ![N, K]⟩ : Shape).Idx → EReal) (w : (⟨2, ![K, J]⟩ : Shape).Idx → EReal)
    (b : (⟨1, ![J]⟩ : Shape).Idx → EReal) : (⟨2, ![N, J]⟩ : Shape).Idx → EReal :=
  fun y => project a w y + b (ix1 (⟨(y 1).val, idx2_lt1 y⟩ : Fin J))

theorem project_apply (a : (⟨2, ![N, K]⟩ : Shape).Idx → EReal) (w : (⟨2, ![K, J]⟩ : Shape).Idx → EReal) (n : Fin N) (j : Fin J) :
    project a w (ix2 n j) = ∑ k : Fin K, a (ix2 n k) * w (ix2 k j) := rfl

theorem affine_apply (a : (⟨2, ![N, K]⟩ : Shape).Idx → EReal) (w : (⟨2, ![K, J]⟩ : Shape).Idx → EReal)
    (b : (⟨1, ![J]⟩ : Shape).Idx → EReal) (n : Fin N) (j : Fin J) :
    affine a w b (ix2 n j) = (∑ k : Fin K, a (ix2 n k) * w (ix2 k j)) + b (ix1 j) := rfl

end Cert.Lib.Dense

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibNormHop.lean ====
/-
  A propagation normalised on both sides, on real entries.

  A graph layer with symmetric normalisation weights the edge `e` from row `s e` to row `t e` by `D (s e) · D (t e)` for a
  real column `D` over the nodes. There are two ways to compute it. One gathers the source rows, multiplies row `e` of the
  gathered array by the edge's weight and adds the rows up at their targets (`Propagate.stepReal` with the coefficient
  `edgeCoef`). The other multiplies row `n` of the array by `D n` first, gathers and adds up with no coefficient
  (`gatherSum`), and multiplies row `n` of the sum by `D n` again. On real entries they agree
  (`scaled_gatherSum_eq_step`): `D (t e)` is the same for every edge landing on a row, so it factors out of that row's sum —
  provided the row the edge's target word names when it is READ (moved up if negative, clamped) is the row it LANDS on
  (not moved, dropped if outside), which holds for every edge that lands at all (`clampRow_wrapped_of_lands`).

  Also here, for any extents: a flat array gathered at a column of index words read at an entry (`flatGather_apply`); the
  gather-and-add of a real array as a real array (`host_gatherSum`); a real column spread along the rows' entries and
  multiplied in (`mul_spread_real`); the propagation commuting with a matrix product, in the reals (`stepReal_contract`);
  a dense layer on real entries, as a product and bias (`project_real`, `affine_real`) and as the host's `dot_general`
  followed by a bias row spread over the rows (`dotGeneral_real`, `biasRows_apply`, `add_biasRows_real`); two such layers
  after a propagation each, as one real array (`twoLayer`); the word-level fact under `clampRow_wrapped_of_lands`
  (`wrapped_word_of_toInt`); and the normalisation `deg ^ (-1/2)` where `deg > 0`, else `0`, of a real `deg` being real
  (`isReal_rsqrt_where_pos`).
-/
import proofs.«111670_j49134425867022_2_alg».proof.Proof.LibPropagate
import proofs.«111670_j49134425867022_2_alg».proof.Proof.LibDense
import proofs.«111670_j49134425867022_2_alg».proof.Proof.LibPlainDot

noncomputable section

open scoped BigOperators

namespace Cert.Lib.NormHop

open Idealize.ShloMosaic Idealize.ShloMosaic.ValueIdx Cert.Lib.RowOps Cert.Lib.RealSum Cert.Lib.Propagate Cert.Lib.Dense

variable {N E F K J : Nat}

/-! ## A flat array gathered at a column of index words -/

/-- The dimension numbers of `x[idx]` for a flat operand `[N]` and start indices `[E, 1]`: result `[E]`. -/
abbrev flatGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered array is the operand at the row start index `e` names (read signed, clamped). -/
theorem flatGather_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) {w : Nat} (idx : IVec ⟨2, ![E, 1]⟩ w) (e : Fin E) :
    Host.gather (flatGather N E wf) x idx (ix1 e) = x (ix1 (clampRow hN idx e)) := by
  unfold Host.gather
  refine congrArg x ?_
  funext a
  obtain rfl : a = 0 := Subsingleton.elim _ _
  refine Fin.ext ?_
  show (flatGather N E wf).start (ix1 e) idx 0 + (flatGather N E wf).batchCoord (ix1 e) 0
      + (flatGather N E wf).offCoord (ix1 e) 0 = min (idx (ix2 e 0)).toInt.toNat (N - 1)
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N E wf).startIndexMap from List.mem_singleton.mpr rfl)]
  have hsi : (flatGather N E wf).siIdx (ix1 e) ⟨List.idxOf (0 : Fin 1) (flatGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Rows gathered and added up, with no coefficient -/

/-- Over the edges landing on row `n`, the sum of the source rows' entries in column `f`. -/
def gatherSum (hN : 0 < N) (rowI colI : IVec ⟨2, ![E, 1]⟩ 32) (r : (⟨2, ![N, F]⟩ : Shape).Idx → ℝ) :
    (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F))

/-- The printed gather-and-add of a real array, into zeros, is the real array `gatherSum`. -/
theorem host_gatherSum (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (hz : ∀ i, zArr i = 0)
    (r : (⟨2, ![N, F]⟩ : Shape).Idx → ℝ) :
    Host.scatterAdd ds zArr colI (Host.gather dg (fun x => (r x : EReal)) rowI)
      = fun x => ((gatherSum hN rowI colI r x : ℝ) : EReal) := by
  subst hdg hds
  funext x
  obtain ⟨n, f, rfl⟩ : ∃ (n : Fin N) (f : Fin F), x = ix2 n f := ⟨x 0, x 1, eq_ix2 x⟩
  show Ideal.hostScatterAdd (rowScatter N E F wfS) zArr colI
      (fun j => ((r ((rowGather N E F wfG).operandIdx j rowI) : ℝ) : EReal)) (ix2 n f) = _
  rw [scatterAdd_rows_apply, hz, zero_add]
  simp only [rowGather_operandIdx hN]
  exact (coe_sum _ _).symm

/-! ## A real column over the rows, multiplied in -/

/-- A real array times a real column spread along its rows' entries: row `n` is multiplied by `D n`. -/
theorem mul_spread_real (hN1 : N ≠ 1)
    (h1 : (⟨1, ![N]⟩ : Shape).BroadcastsInDim ⟨2, ![N, 1]⟩ (![0] : Fin 1 → Fin 2))
    (h2 : (⟨2, ![N, 1]⟩ : Shape).BroadcastsInDim ⟨2, ![N, F]⟩ (![0, 1] : Fin 2 → Fin 2))
    (d : FVec Ideal ⟨1, ![N]⟩ .f32) (D : Fin N → ℝ) (hd : ∀ n, d (ix1 n) = (D n : EReal))
    (r : (⟨2, ![N, F]⟩ : Shape).Idx → ℝ) :
    mulf (fun x => (r x : EReal) : FVec Ideal ⟨2, ![N, F]⟩ .f32)
        (broadcastInDim ⟨2, ![N, F]⟩ (![0, 1] : Fin 2 → Fin 2) h2 (broadcastInDim ⟨2, ![N, 1]⟩ (![0] : Fin 1 → Fin 2) h1 d))
      = fun x => ((r x * D (⟨(x 0).val, idx2_lt0 x⟩ : Fin N) : ℝ) : EReal) := by
  funext x
  obtain ⟨n, f, rfl⟩ : ∃ (n : Fin N) (f : Fin F), x = ix2 n f := ⟨x 0, x 1, eq_ix2 x⟩
  rw [mulf_apply, rowBroadcast_apply hN1 h1 h2 d n f, hd]
  exact (EReal.coe_mul _ _).symm

/-! ## The two normalisations agree -/

/-- The weight of edge `e`: the column at the row its source names times the column at the row its target names. -/
def edgeCoef (hN : 0 < N) (rowS rowT : IVec ⟨2, ![E, 1]⟩ 32) (D : Fin N → ℝ) (e : Fin E) : ℝ :=
  D (clampRow hN rowS e) * D (clampRow hN rowT e)

/-- Scaling the rows by `D`, gathering and adding up, and scaling by `D` again is the propagation with the edges'
    weights — when every edge landing on a row reads that row as its target. -/
theorem scaled_gatherSum_eq_step (hN : 0 < N) (rowS rowT colT : IVec ⟨2, ![E, 1]⟩ 32) (D : Fin N → ℝ)
    (hT : ∀ (e : Fin E) (n : Fin N), (colT (ix2 e 0)).toInt = (n.val : Int) → clampRow hN rowT e = n)
    (r : (⟨2, ![N, F]⟩ : Shape).Idx → ℝ) :
    (fun x => gatherSum hN rowS colT (fun y => r y * D (⟨(y 0).val, idx2_lt0 y⟩ : Fin N)) x * D (⟨(x 0).val, idx2_lt0 x⟩ : Fin N))
      = stepReal hN rowS colT (edgeCoef hN rowS rowT D) r := by
  funext x
  unfold gatherSum stepReal edgeCoef
  rw [Finset.sum_mul]
  refine Finset.sum_congr rfl fun e he => ?_
  rw [hT e ⟨(x 0).val, idx2_lt0 x⟩ (Finset.mem_filter.mp he).2]
  show r _ * D (clampRow hN rowS e) * D _ = r _ * (D (clampRow hN rowS e) * D _)
  ring

/-- The propagation commutes with a product by a matrix on the feature axis, in the reals. -/
theorem stepReal_contract (hN : 0 < N) (rowI colI : IVec ⟨2, ![E, 1]⟩ 32) (ν : Fin E → ℝ)
    (r : (⟨2, ![N, K]⟩ : Shape).Idx → ℝ) (w : (⟨2, ![K, J]⟩ : Shape).Idx → ℝ) :
    stepReal hN rowI colI ν (contract r w) = contract (stepReal hN rowI colI ν r) w := by
  funext y
  obtain ⟨n, j, rfl⟩ : ∃ (n : Fin N) (j : Fin J), y = ix2 n j := ⟨y 0, y 1, eq_ix2 y⟩
  show ∑ e ∈ Finset.univ.filter (fun e : Fin E => (colI (ix2 e 0)).toInt = (n.val : Int)),
      (∑ k : Fin K, r (ix2 (clampRow hN rowI e) k) * w (ix2 k j)) * ν e
    = ∑ k : Fin K, (∑ e ∈ Finset.univ.filter (fun e : Fin E => (colI (ix2 e 0)).toInt = (n.val : Int)),
        r (ix2 (clampRow hN rowI e) k) * ν e) * w (ix2 k j)
  simp only [Finset.sum_mul]
  rw [Finset.sum_comm]
  refine Finset.sum_congr rfl fun k _ => Finset.sum_congr rfl fun e _ => by ring

/-! ## A dense layer on real entries -/

/-- The product of two real arrays is the real product. -/
theorem project_real (r : (⟨2, ![N, K]⟩ : Shape).Idx → ℝ) (w : (⟨2, ![K, J]⟩ : Shape).Idx → ℝ) :
    project (fun x => (r x : EReal)) (fun x => (w x : EReal)) = fun y => ((contract r w y : ℝ) : EReal) := by
  funext y
  obtain ⟨n, j, rfl⟩ : ∃ (n : Fin N) (j : Fin J), y = ix2 n j := ⟨y 0, y 1, eq_ix2 y⟩
  exact (contract_coe r w n j).symm

/-- The real product with a real row added to each of its rows. -/
def affineReal (r : (⟨2, ![N, K]⟩ : Shape).Idx → ℝ) (w : (⟨2, ![K, J]⟩ : Shape).Idx → ℝ) (b : Fin J → ℝ) :
    (⟨2, ![N, J]⟩ : Shape).Idx → ℝ :=
  fun y => contract r w y + b (⟨(y 1).val, idx2_lt1 y⟩ : Fin J)

/-- A dense layer with a bias on real entries is real. -/
theorem affine_real (r : (⟨2, ![N, K]⟩ : Shape).Idx → ℝ) (w : (⟨2, ![K, J]⟩ : Shape).Idx → ℝ)
    (b : (⟨1, ![J]⟩ : Shape).Idx → EReal) (β : Fin J → ℝ) (hb : ∀ j, b (ix1 j) = (β j : EReal)) :
    affine (fun x => (r x : EReal)) (fun x => (w x : EReal)) b = fun y => ((affineReal r w β y : ℝ) : EReal) := by
  funext y
  obtain ⟨n, j, rfl⟩ : ∃ (n : Fin N) (j : Fin J), y = ix2 n j := ⟨y 0, y 1, eq_ix2 y⟩
  show project (fun x => (r x : EReal)) (fun x => (w x : EReal)) (ix2 n j) + b (ix1 j) = _
  rw [project_real, hb]
  exact (EReal.coe_add _ _).symm

/-- A `[J]` row spread over the rows of `[N, J]` (through `[1, J]`) reads, at `(n, j)`, its entry `j`. -/
theorem biasRows_apply {α : Type}
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : (⟨1, ![J]⟩ : Shape).Idx → α) (n : Fin N) (j : Fin J) :
    broadcastInDim ⟨2, ![N, J]⟩ (![0, 1] : Fin 2 → Fin 2) h2 (broadcastInDim ⟨2, ![1, J]⟩ (![1] : Fin 1 → Fin 2) h1 b) (ix2 n j)
      = b (ix1 j) := by
  rw [broadcastInDim_apply _ h2 _ (ix2 n j) (ix2 (0 : Fin 1) j) (fun a => match a with
    | ⟨0, _⟩ => by show 0 = if (1 : Nat) = 1 then 0 else n.val; rw [if_pos rfl]
    | ⟨1, _⟩ => by
      show j.val = if J = 1 then 0 else j.val
      split
      · have := j.isLt; omega
      · rfl)]
  rw [broadcastInDim_apply _ h1 _ (ix2 (0 : Fin 1) j) (ix1 j) (fun a => match a with
    | ⟨0, _⟩ => by
      show j.val = if J = 1 then 0 else j.val
      split
      · have := j.isLt; omega
      · rfl)]

/-- A real array plus a real row spread over its rows. -/
theorem add_biasRows_real
    (h1 : (⟨1, ![J]⟩ : Shape).BroadcastsInDim ⟨2, ![1, J]⟩ (![1] : Fin 1 → Fin 2))
    (h2 : (⟨2, ![1, J]⟩ : Shape).BroadcastsInDim ⟨2, ![N, J]⟩ (![0, 1] : Fin 2 → Fin 2))
    (b : FVec Ideal ⟨1, ![J]⟩ .f32) (β : Fin J → ℝ) (hb : ∀ j, b (ix1 j) = (β j : EReal))
    (r : (⟨2, ![N, J]⟩ : Shape).Idx → ℝ) :
    addf (fun x => (r x : EReal) : FVec Ideal ⟨2, ![N, J]⟩ .f32)
        (broadcastInDim ⟨2, ![N, J]⟩ (![0, 1] : Fin 2 → Fin 2) h2 (broadcastInDim ⟨2, ![1, J]⟩ (![1] : Fin 1 → Fin 2) h1 b))
      = fun x => ((r x + β (⟨(x 1).val, idx2_lt1 x⟩ : Fin J) : ℝ) : EReal) := by
  funext x
  obtain ⟨n, j, rfl⟩ : ∃ (n : Fin N) (j : Fin J), x = ix2 n j := ⟨x 0, x 1, eq_ix2 x⟩
  rw [addf_apply, biasRows_apply h1 h2 b n j, hb]
  exact (EReal.coe_add _ _).symm

/-- The host's plain `dot_general` of two real arrays is the real product. -/
theorem dotGeneral_real (d : DotDims ⟨2, ![N, K]⟩ ⟨2, ![K, J]⟩ ⟨2, ![N, J]⟩) (hd : Cert.PlainDot.IsPlain d)
    (r : (⟨2, ![N, K]⟩ : Shape).Idx → ℝ) (w : (⟨2, ![K, J]⟩ : Shape).Idx → ℝ) :
    Host.dotGeneral (F := Ideal) (φ₁ := .f32) (φ₂ := .f32) d none (fun x => (r x : EReal)) (fun x => (w x : EReal))
      = fun y => ((contract r w y : ℝ) : EReal) := by
  funext y
  obtain ⟨n, j, rfl⟩ : ∃ (n : Fin N) (j : Fin J), y = ix2 n j := ⟨y 0, y 1, eq_ix2 y⟩
  exact (Cert.PlainDot.dotGeneral_apply d hd none _ _ n j).trans (contract_coe r w n j).symm

/-- Two layers of "propagate with the edges' weights, then a dense layer with a bias", on real entries. -/
def twoLayer (hN : 0 < N) (rowS rowT colT : IVec ⟨2, ![E, 1]⟩ 32) (D : Fin N → ℝ)
    (x : (⟨2, ![N, F]⟩ : Shape).Idx → ℝ) (w1 : (⟨2, ![F, K]⟩ : Shape).Idx → ℝ) (β1 : Fin K → ℝ)
    (w2 : (⟨2, ![K, J]⟩ : Shape).Idx → ℝ) (β2 : Fin J → ℝ) : (⟨2, ![N, J]⟩ : Shape).Idx → ℝ :=
  affineReal (stepReal hN rowS colT (edgeCoef hN rowS rowT D)
    (affineReal (stepReal hN rowS colT (edgeCoef hN rowS rowT D) x) w1 β1)) w2 β2

/-! ## The index words -/

/-- A 32-bit word whose signed value is a row number `n < N` is not negative, so "moved up by a constant if negative" leaves
    it alone, and clamping into `[0, N − 1]` leaves it alone too. -/
theorem wrapped_word_of_toInt (x cN : BitVec 32) (n : Nat) (hn : n < N) (hl : x.toInt = (n : Int)) :
    min (Scalar.select (IntOp.cmpi .slt x 0#32) (IntOp.addi x cN) x).toInt.toNat (N - 1) = n := by
  have hnot : IntOp.cmpi .slt x 0#32 = 0#1 := by
    show BitVec.ofBool (x.slt (0#32)) = 0#1
    have : x.slt (0#32) = false := by
      rw [BitVec.slt_eq_decide]
      simp only [BitVec.toInt_zero, decide_eq_false_iff_not, not_lt]
      omega
    rw [this]; rfl
  rw [hnot, select_zero, hl]
  omega

/-- An edge whose target word, read as it stands, lands on row `n` also reads row `n` when the word is first moved up
    by a constant if negative and then clamped: a word that lands is not negative and is below `N`. -/
theorem clampRow_wrapped_of_lands (hN : 0 < N)
    (h0 : (⟨0, ![]⟩ : Shape).BroadcastsInDim ⟨1, ![E]⟩ (![] : Fin 0 → Fin 1))
    (h1 : (⟨1, ![E]⟩ : Shape).BroadcastsInDim ⟨2, ![E, 1]⟩ (![0] : Fin 1 → Fin 2))
    (tg : IVec ⟨1, ![E]⟩ 32) (cN : BitVec 32) (e : Fin E) (n : Fin N)
    (hl : BitVec.toInt (broadcastInDim ⟨2, ![E, 1]⟩ (![0] : Fin 1 → Fin 2) h1 tg (ix2 e 0)) = (n.val : Int)) :
    clampRow hN (broadcastInDim ⟨2, ![E, 1]⟩ (![0] : Fin 1 → Fin 2) h1
      (select (cmpi .slt tg (broadcastInDim ⟨1, ![E]⟩ (![] : Fin 0 → Fin 1) h0 (constantI ⟨0, ![]⟩ 32 0#32)))
        (addi tg (broadcastInDim ⟨1, ![E]⟩ (![] : Fin 0 → Fin 1) h0 (constantI ⟨0, ![]⟩ 32 cN))) tg)) e = n := by
  have hb : ∀ (v : IVec ⟨1, ![E]⟩ 32), broadcastInDim ⟨2, ![E, 1]⟩ (![0] : Fin 1 → Fin 2) h1 v (ix2 e 0) = v (ix1 e) := fun v =>
    broadcastInDim_apply _ h1 v (ix2 e 0) (ix1 e) (fun a => match a with
      | ⟨0, _⟩ => by
        show e.val = if E = 1 then 0 else e.val
        split
        · have := e.isLt; omega
        · rfl)
  rw [hb] at hl
  refine Fin.ext ?_
  unfold clampRow
  dsimp only
  rw [hb]
  exact wrapped_word_of_toInt (tg (ix1 e)) cN n.val n.isLt hl

/-! ## The normalisation is real -/

/-- `deg ^ (-1/2)` where `deg` is positive, zero elsewhere, of a real `deg`, is real. -/
theorem isReal_rsqrt_where_pos {s : Shape} (deg z z' : FVec Ideal s .f32) (hdeg : ∀ i, IsReal (deg i))
    (hz : ∀ i, z i = 0) (hz' : ∀ i, z' i = 0) (i : s.Idx) :
    IsReal (select (cmpf .ogt deg z) (Host.rsqrt deg) z' i) := by
  obtain ⟨r, hr⟩ := hdeg i
  rw [select_apply, cmpf_apply]
  show IsReal (Scalar.select (Ideal.cmp .ogt (deg i) (z i)) (Ideal.rsqrt (deg i)) (z' i))
  rw [hz, hz', hr]
  by_cases hpos : 0 < r
  · have : Ideal.cmp .ogt (r : EReal) 0 = 1#1 := by
      show BitVec.ofBool (decide ((0 : EReal) < (r : EReal))) = 1#1
      rw [decide_eq_true (by exact_mod_cast hpos)]; rfl
    rw [this, select_one]
    exact IsReal.rsqrt_of_pos hpos
  · have : Ideal.cmp .ogt (r : EReal) 0 = 0#1 := by
      show BitVec.ofBool (decide ((0 : EReal) < (r : EReal))) = 0#1
      rw [decide_eq_false (by exact_mod_cast hpos)]; rfl
    rw [this, select_zero]
    exact IsReal.zero

end Cert.Lib.NormHop

end
-- ==== Proof.RefValue.lean ====
/-
  The reference on real entries.

  When the float arguments hold real numbers the reference's result is a real array, entry by entry: the normalisation
  `dinv` is a real column `D`, the weight of edge `e` is `D (s e) · D (t e)` (the two flat gathers of `dinv`), one propagation
  is the weighted gather-and-add of real rows, and a dense layer of real arrays is real. Two layers give `twoLayer`.
-/
import proofs.«111670_j49134425867022_2_alg».proof.Proof.RSpec
import proofs.«111670_j49134425867022_2_alg».proof.Proof.LibNormHop

noncomputable section

namespace Cert.ReferenceIdeal.RefValue

open Cert.ReferenceIdeal Cert.ReferenceIdeal.Facts₀ Cert.ReferenceIdeal.RSpec Idealize.ShloMosaic Idealize.ShloMosaic.ValueIdx
open Cert.Lib.RowOps Cert.Lib.RealSum Cert.Lib.Propagate Cert.Lib.Dense Cert.Lib.NormHop

theorem hN : 0 < 100000 := by decide

variable (a1 : IVec S2x1600000 32)

/-- The number of landing edges is a real at every node: zeros plus a sum of ones. -/
theorem deg_real (n : S100000.Idx) : IsReal (deg a1 n) := by
  unfold deg
  refine IsReal.host_scatterAdd _ _ _ _ (fun i => ?_) (fun j => ?_) n
  · exact ⟨0, zeros_apply _ i⟩
  · refine ⟨1, ?_⟩
    show Ideal.ofBits .f32 0x3F800000#32 = ((1 : ℝ) : EReal)
    simp [Ideal.ofBits, Ideal.ieee]
    rw [← EReal.coe_mul]
    norm_num

/-- The normalisation is a real column. -/
theorem dinv_real : ∃ D : Fin 100000 → ℝ, ∀ n, dinv a1 (ix1 n) = (D n : EReal) := by
  have h : ∀ i, IsReal (dinv a1 i) := fun i =>
    isReal_rsqrt_where_pos (deg a1) zeros1 _ (deg_real a1) (fun i => zeros_apply _ i) (fun i => zeros_apply _ i) i
  choose D hD using fun n : Fin 100000 => h (ix1 n)
  exact ⟨D, hD⟩

variable (D : Fin 100000 → ℝ) (hD : ∀ n, dinv a1 (ix1 n) = (D n : EReal))
include hD

/-- The weight of edge `e`: the column at its source row times the column at its target row. -/
theorem norm_apply (e : Fin 1700000) :
    RSpec.norm a1 (ix1 e) = ((edgeCoef hN (wrapped (srcW a1)) (wrapped (tgtW a1)) D e : ℝ) : EReal) := by
  unfold RSpec.norm
  have hg : gather_S100000_S1700000x1_S1700000_n_0_n_n_0_1_1
      = flatGather 100000 1700000 gather_S100000_S1700000x1_S1700000_n_0_n_n_0_1_1_wf := rfl
  rw [mulf_apply, hg, flatGather_apply hN, flatGather_apply hN, hD, hD]
  exact (EReal.coe_mul _ _).symm

/-- The weights spread along the columns. -/
theorem normB_apply (e : Fin 1700000) (f : Fin 128) :
    normB a1 (ix2 e f) = ((edgeCoef hN (wrapped (srcW a1)) (wrapped (tgtW a1)) D e : ℝ) : EReal) := by
  unfold normB
  rw [rowBroadcast_apply (by decide : (1700000 : Nat) ≠ 1) _ _ (RSpec.norm a1) e f]
  exact norm_apply a1 D hD e

/-- One propagation of a real array. -/
theorem hop_real (r : S100000x128.Idx → ℝ) :
    RSpec.hop a1 (fun x => (r x : EReal))
      = fun x => ((stepReal hN (wrapped (srcW a1)) (colT a1) (edgeCoef hN (wrapped (srcW a1)) (wrapped (tgtW a1)) D) r x : ℝ) : EReal) := by
  unfold RSpec.hop
  exact host_hop_real hN gather_S100000x128_S1700000x1_S1700000x128_1_0_n_n_0_1_1128_wf
    scatter_S100000x128_S1700000x1_S1700000x128_1_0_0_1_wf _ _ rfl rfl _ _ _ _ (fun i => zeros_apply _ i) _
    (fun e f => normB_apply a1 D hD e f) r

variable (xr : S100000x128.Idx → ℝ) (w1r : S128x128.Idx → ℝ) (w2r : S128x64.Idx → ℝ)
  (b1 : FVec Ideal S128 .f32) (β1 : Fin 128 → ℝ) (hb1 : ∀ j, b1 (ix1 j) = (β1 j : EReal))
  (b2 : FVec Ideal S64 .f32) (β2 : Fin 64 → ℝ) (hb2 : ∀ j, b2 (ix1 j) = (β2 j : EReal))

include hb1 in
/-- The first layer of real arguments. -/
theorem layer1_real :
    layer1 (fun x => (xr x : EReal)) a1 (fun x => (w1r x : EReal)) b1
      = fun y => ((affineReal (stepReal hN (wrapped (srcW a1)) (colT a1) (edgeCoef hN (wrapped (srcW a1)) (wrapped (tgtW a1)) D) xr) w1r β1 y : ℝ) : EReal) := by
  unfold layer1
  rw [hop_real a1 D hD xr, dotGeneral_real _ ⟨rfl, rfl, rfl, rfl, rfl, rfl⟩, add_biasRows_real _ _ b1 β1 hb1]
  rfl

include hb1 hb2 in
/-- The reference's result on real arguments is the real array `twoLayer`. -/
theorem out_real :
    out (fun x => (xr x : EReal)) a1 (fun x => (w1r x : EReal)) b1 (fun x => (w2r x : EReal)) b2
      = fun y => ((twoLayer hN (wrapped (srcW a1)) (wrapped (tgtW a1)) (colT a1) D xr w1r β1 w2r β2 y : ℝ) : EReal) := by
  unfold out
  rw [layer1_real a1 D hD xr w1r b1 β1 hb1, hop_real a1 D hD, dotGeneral_real _ ⟨rfl, rfl, rfl, rfl, rfl, rfl⟩,
    add_biasRows_real _ _ b2 β2 hb2]
  rfl

end Cert.ReferenceIdeal.RefValue

end
-- ==== Proof.KSpec.lean ====
/-
  What the kernel's program computes, as one function of its six argument arrays.

  With `s` the source words and `d` the target words of the edges followed by one loop per node, `deg n` the number of
  edges whose target is `n` and `dinv n = deg n ^ (-1/2)` (zero where `deg n` is not positive), one propagation of an
  `[N, F]` array `Y` scales row `n` by `dinv n`, adds up over the edges landing on `n` the scaled source rows, and scales
  the result's row `n` by `dinv n` again. The program propagates `x` (128 wide), applies `· W1 + b1`, applies `· W2`,
  propagates the 64-wide product, and adds `b2`.
-/
import proofs.«111670_j49134425867022_2_alg».proof.Proof.Gen.KernelIdeal
import proofs.«111670_j49134425867022_2_alg».proof.Proof.LibDense

noncomputable section

namespace Cert.KernelIdeal.KSpec

open Cert.KernelIdeal Cert.KernelIdeal.Facts₀ Idealize.ShloMosaic Cert.Lib.Dense

/-- The edges' source words followed by the nodes' own numbers. -/
def srcW (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩,
    ⟨S100000, iotaInDim S100000 32 0⟩] concatenates_S1600000_S100000_S1700000_d0

/-- The edges' target words followed by the nodes' own numbers. -/
def tgtW (a1 : IVec S2x1600000 32) : IVec S1700000 32 :=
  concatenate S1700000 0 [⟨S1600000, shapeCast S1600000 (extractStridedSlice S1x1600000 ![1, 0] a1 slices_S2x1600000_S1x1600000_1_0) shapeCasts_S1x1600000_S1600000⟩,
    ⟨S100000, iotaInDim S100000 32 0⟩] concatenates_S1600000_S100000_S1700000_d0

/-- The rows a propagation reads: the source words, a negative one moved up by the number of nodes, as a column. -/
def rowI (a1 : IVec S2x1600000 32) : IVec S1700000x1 32 :=
  broadcastInDim S1700000x1 ![0] bcast_S1700000_S1700000x1_0
    (select (cmpi .slt (srcW a1) (broadcastInDim S1700000 ![] bcast_S_S1700000 (constantI S_ 32 0#32)))
      (addi (srcW a1) (broadcastInDim S1700000 ![] bcast_S_S1700000 (constantI S_ 32 100000#32))) (srcW a1))

/-- The rows a propagation adds onto: the target words as they are, as a column. -/
def colI (a1 : IVec S2x1600000 32) : IVec S1700000x1 32 :=
  broadcastInDim S1700000x1 ![0] bcast_S1700000_S1700000x1_0 (tgtW a1)

/-- A flat array of zeros. -/
def zeros1 : FVec Ideal S100000 .f32 :=
  broadcastInDim S100000 ![] bcast_S_S100000 (constant (F := Ideal) S_ .f32 0x00000000#32)

/-- The number of edges landing on each node: ones added up at the target words. -/
def deg (a1 : IVec S2x1600000 32) : FVec Ideal S100000 .f32 :=
  Host.scatterAdd scatter_S100000_S1700000x1_S1700000_n_0_0_1 zeros1 (colI a1)
    (broadcastInDim S1700000 ![] bcast_S_S1700000 (constant (F := Ideal) S_ .f32 0x3F800000#32))

/-- The normalisation: `deg ^ (-1/2)` where `deg` is positive, zero elsewhere. -/
def dinv (a1 : IVec S2x1600000 32) : FVec Ideal S100000 .f32 :=
  select (cmpf .ogt (deg a1) zeros1) (Host.rsqrt (deg a1))
    (broadcastInDim S100000 ![] bcast_S_S100000 (id (constant (F := Ideal) S_ .f32 0x00000000#32)))

/-- A flat array over the nodes spread along 128 columns. -/
def spread128 (d : FVec Ideal S100000 .f32) : FVec Ideal S100000x128 .f32 :=
  broadcastInDim S100000x128 ![0, 1] bcast_S100000x1_S100000x128_0_1 (broadcastInDim S100000x1 ![0] bcast_S100000_S100000x1_0 d)

/-- A flat array over the nodes spread along 64 columns. -/
def spread64 (d : FVec Ideal S100000 .f32) : FVec Ideal S100000x64 .f32 :=
  broadcastInDim S100000x64 ![0, 1] bcast_S100000x1_S100000x64_0_1 (broadcastInDim S100000x1 ![0] bcast_S100000_S100000x1_0 d)

/-- Source rows gathered and added up onto the target rows, 128 wide. -/
def gatherSum128 (a1 : IVec S2x1600000 32) (y : FVec Ideal S100000x128 .f32) : FVec Ideal S100000x128 .f32 :=
  Host.scatterAdd scatter_S100000x128_S1700000x1_S1700000x128_1_0_0_1
    (broadcastInDim S100000x128 ![] bcast_S_S100000x128 (constant (F := Ideal) S_ .f32 0x00000000#32)) (colI a1)
    (Host.gather gather_S100000x128_S1700000x1_S1700000x128_1_0_n_n_0_1_1128 y (rowI a1))

/-- Source rows gathered and added up onto the target rows, 64 wide. -/
def gatherSum64 (a1 : IVec S2x1600000 32) (y : FVec Ideal S100000x64 .f32) : FVec Ideal S100000x64 .f32 :=
  Host.scatterAdd scatter_S100000x64_S1700000x1_S1700000x64_1_0_0_1
    (broadcastInDim S100000x64 ![] bcast_S_S100000x64 (constant (F := Ideal) S_ .f32 0x00000000#32)) (colI a1)
    (Host.gather gather_S100000x64_S1700000x1_S1700000x64_1_0_n_n_0_1_164 y (rowI a1))

/-- The first propagation: what the first dense layer is applied to. -/
def head (x0 : FVec Ideal S100000x128 .f32) (a1 : IVec S2x1600000 32) : FVec Ideal S100000x128 .f32 :=
  mulf (gatherSum128 a1 (mulf x0 (spread128 (dinv a1)))) (spread128 (dinv a1))

/-- The second propagation and the last bias, applied to the 64-wide product. -/
def tail (a1 : IVec S2x1600000 32) (b2 : FVec Ideal S64 .f32) (g : FVec Ideal S100000x64 .f32) : FVec Ideal S100000x64 .f32 :=
  addf (mulf (gatherSum64 a1 (mulf g (spread64 (dinv a1)))) (spread64 (dinv a1)))
    (broadcastInDim S100000x64 ![0, 1] bcast_S1x64_S100000x64_0_1 (broadcastInDim S1x64 ![1] bcast_S64_S1x64_1 b2))

/-- The program's result. -/
def out (x0 : FVec Ideal S100000x128 .f32) (a1 : IVec S2x1600000 32) (w1 : FVec Ideal S128x128 .f32) (b1 : FVec Ideal S128 .f32)
    (w2 : FVec Ideal S128x64 .f32) (b2 : FVec Ideal S64 .f32) : FVec Ideal S100000x64 .f32 :=
  tail a1 b2 (project (affine (head x0 a1) w1 b1) w2)

end Cert.KernelIdeal.KSpec

end
-- ==== Proof.KBlocks.lean ====
/-
  The two dense regions' output arrays, whole.

  Each region runs its body once per block of 5000 rows; block `t` of the output holds the body's result of block `t` of
  the input rows and the whole weight (and bias). The blocks tile the rows, so the output array after the region is one
  function of the arrays the region was entered with: rows times the weight matrix, plus the bias row in the first.
  Stated at ANY entry contents `V`.

  The argument, the same for both regions:

  * the body at an entry: entry `(p, q)` of what the body stores is `∑ k, x (p, k) · w (k, q)` (`+ b q` in the first
    region), for any block of rows `x`, weight `w` and bias `b` (`body0_apply`, `body1_apply`);
  * where the blocks sit: at point `t` the rows' block and the output's block start at row `5000 · t`, column `0`, and
    the weight's and the bias's blocks are the whole arrays (`index0`, `index1`: twenty points, decided), so the rows'
    block at `(p, k)` is the array at `(5000 · t + p, k)` (`rows_block0`, `rows_block1`) and the other blocks are
    their arrays (`weight_block0`, `bias_block0`, `weight_block1`);
  * so the body's result on the rows from `r` on, at `(p, q)`, is the dense layer of the whole array at `(r + p, q)`
    (`body0_rows`, `body1_rows`), and what point `t` writes back is block `t` of the dense layer of the whole arrays
    (`written0`, `written1`);
  * row `n` of the output lies in the block of point `n / 5000` (`cover0`, `cover1`), so the blocks cover the array and
    the array ends holding the dense layer.
-/
import proofs.«111670_j49134425867022_2_alg».proof.Proof.Gen.KernelIdeal.Frame
import proofs.«111670_j49134425867022_2_alg».proof.Proof.LibDense
import proofs.«111670_j49134425867022_2_alg».proof.Proof.LibPlainDot
import Idealize.ShloMosaic.Lib.Pipeline.Value
import Idealize.ShloMosaic.Lib.ValueLayout

noncomputable section

namespace Cert.KernelIdeal.KBlocks

open Cert.KernelIdeal Cert.KernelIdeal.Gen Idealize.ShloMosaic Idealize.ShloMosaic.TcCoe Idealize.SL.Sem Cert.Lib.Dense
open Idealize.ShloMosaic.ValueIdx
open scoped BigOperators

/-! ## The bodies at an entry -/

/-- Entry `(p, q)` of what the first region's body stores, from a block `x` of 5000 rows, the weight `w` and the bias
    `b`: `∑ k, x (p, k) · w (k, q) + b q`. At the extended reals the change of float format before the product is the
    identity and the product into a zero accumulator is the plain sum over the contracted index; the bias is one row
    repeated down the 5000 rows. -/
theorem body0_apply (x : Vec Ideal S5000x128 .f32) (w : Vec Ideal S128x128 .f32) (b : Vec Ideal S128 .f32)
    (p : Fin 5000) (q : Fin 128) :
    k0_pay1 x w b (ix2 p q) = (∑ k : Fin 128, x (ix2 p k) * w (ix2 k q)) + b (ix1 q) := by
  unfold k0_pay1
  rw [addf_apply, shapeCast_self]
  refine congrArg₂ (· + ·) ?_ ?_
  · exact Cert.PlainDot.matmul_zero_apply dot_S5000x128_S128x128_S5000x128_1_0_0_1_n_n ⟨rfl, rfl, rfl, rfl, rfl, rfl⟩
      none _ _ p q
  · exact (broadcastTo_1b_ab_apply _ broadcasts_S1x128_S5000x128 p q).trans
      (shapeCast_a_1a_apply b shapeCasts_S128_S1x128 0 q)

/-- Entry `(p, q)` of what the second region's body stores, from a block `x` of 5000 rows and the weight `w`:
    `∑ k, x (p, k) · w (k, q)`. -/
theorem body1_apply (x : Vec Ideal S5000x128 .f32) (w : Vec Ideal S128x64 .f32) (p : Fin 5000) (q : Fin 64) :
    k1_pay1 x w (ix2 p q) = ∑ k : Fin 128, x (ix2 p k) * w (ix2 k q) := by
  unfold k1_pay1
  rw [shapeCast_self]
  exact Cert.PlainDot.matmul_zero_apply dot_S5000x128_S128x64_S5000x64_1_0_0_1_n_n ⟨rfl, rfl, rfl, rfl, rfl, rfl⟩
    none _ _ p q

/-- The body's result on a block of rows is the dense layer's rows. If `x` holds the rows of `a` from row `r` on
    (`x (p, k) = a (r + p, k)`), then entry `(p, q)` of the first body's result on `x`, `w`, `b` is entry `(r + p, q)` of
    `affine a w b`: both are `∑ k, a (r + p, k) · w (k, q) + b q`. -/
theorem body0_rows (a : S100000x128.Idx → EReal) (w : S128x128.Idx → EReal) (b : S128.Idx → EReal)
    (x : Vec Ideal S5000x128 .f32) (r : Nat)
    (hx : ∀ (y : S5000x128.Idx) (i : S100000x128.Idx), (i 0).val = r + (y 0).val → (i 1).val = (y 1).val → x y = a i)
    (y : S5000x128.Idx) (i : S100000x128.Idx) (h0 : (i 0).val = r + (y 0).val) (h1 : (i 1).val = (y 1).val) :
    k0_pay1 x w b y = affine a w b i := by
  obtain ⟨p, q, rfl⟩ : ∃ (p : Fin 5000) (q : Fin 128), y = ix2 p q := ⟨y 0, y 1, eq_ix2 y⟩
  obtain ⟨n, j, rfl⟩ : ∃ (n : Fin 100000) (j : Fin 128), i = ix2 n j := ⟨i 0, i 1, eq_ix2 i⟩
  obtain rfl : j = q := Fin.ext h1
  rw [body0_apply, affine_apply]
  refine congrArg (· + b (ix1 j)) (Finset.sum_congr rfl fun k _ => ?_)
  rw [hx (ix2 p k) (ix2 n k) h0 rfl]

/-- The same for the second body: on the rows of `a` from row `r` on, entry `(p, q)` of its result is entry
    `(r + p, q)` of `project a w`. -/
theorem body1_rows (a : S100000x128.Idx → EReal) (w : S128x64.Idx → EReal) (x : Vec Ideal S5000x128 .f32) (r : Nat)
    (hx : ∀ (y : S5000x128.Idx) (i : S100000x128.Idx), (i 0).val = r + (y 0).val → (i 1).val = (y 1).val → x y = a i)
    (y : S5000x64.Idx) (i : S100000x64.Idx) (h0 : (i 0).val = r + (y 0).val) (h1 : (i 1).val = (y 1).val) :
    k1_pay1 x w y = project a w i := by
  obtain ⟨p, q, rfl⟩ : ∃ (p : Fin 5000) (q : Fin 64), y = ix2 p q := ⟨y 0, y 1, eq_ix2 y⟩
  obtain ⟨n, j, rfl⟩ : ∃ (n : Fin 100000) (j : Fin 64), i = ix2 n j := ⟨i 0, i 1, eq_ix2 i⟩
  obtain rfl : j = q := Fin.ext h1
  rw [body1_apply, project_apply]
  refine Finset.sum_congr rfl fun k _ => ?_
  rw [hx (ix2 p k) (ix2 n k) h0 rfl]

/-- The zero offsets of a whole-buffer access on two axes. -/
theorem zeros2 : (![0, 0] : Fin 2 → Nat) = fun _ => 0 := funext fun a => by fin_cases a <;> rfl
/-- The zero offset of a whole-buffer access on one axis. -/
theorem zeros1 : (![0] : Fin 1 → Nat) = fun _ => 0 := funext fun a => by fin_cases a; rfl

variable (V : (c : Dev nD) → (b : Ref sig .tc) → Buf (Elt Ideal) ((c : Thread nD τ).loc b))

/-! ## The first region: rows times the first weight, plus the first bias -/

/-- Where the first region's blocks sit, decided over its twenty points: at point `t` the rows' block and the output's
    block have block index `(t, 0)`; the weight's and the bias's have block index zero. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The rows' block at point `t` holds rows `5000 · t …` of the array: its entry `y` is the array's entry `i` whenever
    `i = (5000 · t + y 0, y 1)` (a block's element sits at block index × block size + its coordinate in the block). -/
theorem rows_block0 (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_v30 : S100000x128.Idx → EReal) i := by
  obtain ⟨e0, e1, -⟩ := index0 t
  unfold iblk0
  rw [View.read_apply]
  show V c main_v30 (((cfg0.win 0).blk t).view.emb y) = V c main_v30 i
  refine congrArg _ (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block is the whole weight at every point: its block index is zero on both axes. -/
theorem weight_block0 (c : Dev nD) (t : Fin cfg0.N) :
    (iblk0 V c 1 t : Vec Ideal S128x128 .f32) = (V c main_arg2 : S128x128.Idx → EReal) := by
  obtain ⟨-, -, e0, e1, -⟩ := index0 t
  funext y
  unfold iblk0
  rw [View.read_apply]
  show V c main_arg2 (((cfg0.win 1).blk t).view.emb y) = V c main_arg2 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias's block is the whole bias at every point. -/
theorem bias_block0 (c : Dev nD) (t : Fin cfg0.N) :
    (iblk0 V c 2 t : Vec Ideal S128 .f32) = (V c main_arg3 : S128.Idx → EReal) := by
  obtain ⟨-, -, -, -, e0, -⟩ := index0 t
  funext y
  unfold iblk0
  rw [View.read_apply]
  show V c main_arg3 (((cfg0.win 2).blk t).view.emb y) = V c main_arg3 y
  refine congrArg _ (funext fun a => Fin.ext ?_)
  match a with
  | ⟨0, _⟩ => show win0_2.index t (0 : Fin 1) * 128 + 1 * (y 0).val = (y 0).val; rw [e0]; omega

/-- What point `t` writes back is block `t` of the dense layer of the whole arrays. The body loads its three buffers
    whole and stores once, whole, so its buffer ends at the body's result on the three blocks; the weight's and the
    bias's blocks are their arrays, the rows' block is rows `5000 · t …`, and entry `y` of the output's block is the
    array's entry `(5000 · t + y 0, y 1)`: `body0_rows` at `r = 5000 · t`. -/
theorem written0 (c : Dev nD) (t : Fin cfg0.N) :
    (dat0 (F := Ideal) V c).flushed 3 t
      = ((cfg0.win 3).blk t).view.read (Elt Ideal) (affine (V c main_v30) (V c main_arg2) (V c main_arg3)) := by
  show (cfg0.win 3).cut (grid0.coords t) ((dat0 V c).after 3 t) = _
  rw [after0_3]
  unfold out0_3
  rw [View.canon_unit_zero zeros2]
  simp only [View.ld_unit_zero (S := S5000x128) zeros2, View.ld_unit_zero (S := S128x128) zeros2,
    View.ld_unit_zero (S := S128) zeros1]
  rw [weight_block0, bias_block0]
  obtain ⟨-, -, -, -, -, e0, e1⟩ := index0 t
  funext y
  show k0_pay1 (iblk0 V c 0 t) (V c main_arg2) (V c main_arg3) y
    = affine (V c main_v30) (V c main_arg2) (V c main_arg3) (((cfg0.win 3).blk t).view.emb y)
  refine body0_rows (V c main_v30) (V c main_arg2) (V c main_arg3) (iblk0 V c 0 t) (5000 * t.val)
    (fun y i h0 h1 => rows_block0 V c t y i h0 h1) y (((cfg0.win 3).blk t).view.emb y) ?_ ?_
  · show win0_3.index t (0 : Fin 2) * 5000 + 1 * (y 0).val = 5000 * t.val + (y 0).val; rw [e0]; omega
  · show win0_3.index t (1 : Fin 2) * 128 + 1 * (y 1).val = (y 1).val; rw [e1]; omega

/-- An entry of the output array is in point `t`'s block iff on each axis its coordinate is in the block's range:
    from block index × block size, for block size places. -/
theorem mem_block0 (t : Fin cfg0.N) (i : S100000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v31).slice (win0_3.rect t)).set ↔ _
  rw [View.set_slice_whole, Rect.mem_set_unit]
  exact Iff.rfl

/-- The blocks cover the output array: row `n < 100000` lies in the block of point `n / 5000 < 20`, since
    `(n / 5000) · 5000 ≤ n < (n / 5000) · 5000 + 5000`; every column is in every block. -/
theorem cover0 (i : S100000x128.Idx) :
    ∃ t : Fin cfg0.N, (cfg0.win 3).flush t = true ∧ i ∈ ((cfg0.win 3).blk t).view.set := by
  have hr : (i 0).val < 100000 := (i 0).isLt
  have hc : (i 1).val < 128 := (i 1).isLt
  have ht : (i 0).val / 5000 < cfg0.N := by show (i 0).val / 5000 < 20; omega
  obtain ⟨-, -, -, -, -, e0, e1⟩ := index0 ⟨(i 0).val / 5000, ht⟩
  refine ⟨⟨(i 0).val / 5000, ht⟩, flush0_3 _, ?_⟩
  rw [mem_block0]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-- After the first region its output array is the rows it was given times the first weight, plus the first bias. -/
theorem region0_array (c : Dev nD) :
    (dat0 (F := Ideal) V c).arrAt 3 cfg0.N = affine (V c main_v30) (V c main_arg2) (V c main_arg3) :=
  (dat0 V c).arrAt_eq_of_cover 3 (affine (V c main_v30) (V c main_arg2) (V c main_arg3))
    (fun t _ => written0 V c t) cover0

/-! ## The second region: rows times the second weight -/

/-- Where the second region's blocks sit, decided over its twenty points: at point `t` the rows' block and the output's
    block have block index `(t, 0)`; the weight's has block index zero. -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The rows' block at point `t` holds rows `5000 · t …` of the array the second region reads. -/
theorem rows_block1 (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v31 : S100000x128.Idx → EReal) i := by
  obtain ⟨e0, e1, -⟩ := index1 t
  unfold iblk1
  rw [View.read_apply]
  show V c main_v31 (((cfg1.win 0).blk t).view.emb y) = V c main_v31 i
  refine congrArg _ (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The second weight's block is the whole weight at every point. -/
theorem weight_block1 (c : Dev nD) (t : Fin cfg1.N) :
    (iblk1 V c 1 t : Vec Ideal S128x64 .f32) = (V c main_arg4 : S128x64.Idx → EReal) := by
  obtain ⟨-, -, e0, e1, -⟩ := index1 t
  funext y
  unfold iblk1
  rw [View.read_apply]
  show V c main_arg4 (((cfg1.win 1).blk t).view.emb y) = V c main_arg4 y
  refine congrArg _ (funext fun a => Fin.ext ?_)
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- What point `t` of the second region writes back is block `t` of the product of the whole arrays: `body1_rows` at
    `r = 5000 · t`, as in the first region. -/
theorem written1 (c : Dev nD) (t : Fin cfg1.N) :
    (dat1 (F := Ideal) V c).flushed 2 t
      = ((cfg1.win 2).blk t).view.read (Elt Ideal) (project (V c main_v31) (V c main_arg4)) := by
  show (cfg1.win 2).cut (grid1.coords t) ((dat1 V c).after 2 t) = _
  rw [after1_2]
  unfold out1_2
  rw [View.canon_unit_zero zeros2]
  simp only [View.ld_unit_zero (S := S5000x128) zeros2, View.ld_unit_zero (S := S128x64) zeros2]
  rw [weight_block1]
  obtain ⟨-, -, -, -, e0, e1⟩ := index1 t
  funext y
  show k1_pay1 (iblk1 V c 0 t) (V c main_arg4) y
    = project (V c main_v31) (V c main_arg4) (((cfg1.win 2).blk t).view.emb y)
  refine body1_rows (V c main_v31) (V c main_arg4) (iblk1 V c 0 t) (5000 * t.val)
    (fun y i h0 h1 => rows_block1 V c t y i h0 h1) y (((cfg1.win 2).blk t).view.emb y) ?_ ?_
  · show win1_2.index t (0 : Fin 2) * 5000 + 1 * (y 0).val = 5000 * t.val + (y 0).val; rw [e0]; omega
  · show win1_2.index t (1 : Fin 2) * 64 + 1 * (y 1).val = (y 1).val; rw [e1]; omega

/-- An entry of the second output array is in point `t`'s block iff on each axis its coordinate is in the block's
    range. -/
theorem mem_block1 (t : Fin cfg1.N) (i : S100000x64.Idx) :
    i ∈ ((cfg1.win 2).blk t).view.set
      ↔ ∀ a : Fin 2, win1_2.index t a * S5000x64.size a ≤ (i a).val
          ∧ (i a).val < win1_2.index t a * S5000x64.size a + S5000x64.size a := by
  show i ∈ ((View.whole main_v32).slice (win1_2.rect t)).set ↔ _
  rw [View.set_slice_whole, Rect.mem_set_unit]
  exact Iff.rfl

/-- The blocks cover the second output array: row `n` lies in the block of point `n / 5000`. -/
theorem cover1 (i : S100000x64.Idx) :
    ∃ t : Fin cfg1.N, (cfg1.win 2).flush t = true ∧ i ∈ ((cfg1.win 2).blk t).view.set := by
  have hr : (i 0).val < 100000 := (i 0).isLt
  have hc : (i 1).val < 64 := (i 1).isLt
  have ht : (i 0).val / 5000 < cfg1.N := by show (i 0).val / 5000 < 20; omega
  obtain ⟨-, -, -, -, e0, e1⟩ := index1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_2.index ⟨(i 0).val / 5000, ht⟩ (1 : Fin 2) * 64 ≤ (i 1).val
      ∧ (i 1).val < win1_2.index ⟨(i 0).val / 5000, ht⟩ (1 : Fin 2) * 64 + 64
    rw [e1]; omega

/-- After the second region its output array is the rows it was given times the second weight. -/
theorem region1_array (c : Dev nD) :
    (dat1 (F := Ideal) V c).arrAt 2 cfg1.N = project (V c main_v31) (V c main_arg4) :=
  (dat1 V c).arrAt_eq_of_cover 2 (project (V c main_v31) (V c main_arg4))
    (fun t _ => written1 V c t) cover1

end Cert.KernelIdeal.KBlocks

end
-- ==== Proof.KRun.lean ====
/-
  The kernel's program, run: its result array is `KSpec.out` of the six argument arrays, and the arguments end as
  they were launched.

  The program is six segments: three stretches of host operations (the edge words and the normalisation; the select
  that guards the normalisation; the first propagation), two dense regions, and a last stretch (the second propagation
  and the bias). The frame's run leaves every buffer at the last segment boundary's contents, a fold of the segments
  over the launch memory. This module reads that fold at the result buffer, one segment at a time and from the last
  to the first: a host stretch's result is its operations' term over the contents it was entered with, a region's
  output array is the dense layer of the arrays it was entered with, and a buffer a segment does not write passes
  through it. Each stretch is read at ANY entry contents, under the hypothesis that the buffers it reads hold the
  specification's values; the fold then supplies those hypotheses from the segments before.
-/
import proofs.«111670_j49134425867022_2_alg».proof.Proof.Gen.KernelIdeal.Frame
import proofs.«111670_j49134425867022_2_alg».proof.Proof.KSpec
import proofs.«111670_j49134425867022_2_alg».proof.Proof.KBlocks

noncomputable section

namespace Cert.KernelIdeal.KRun

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the result buffer named

The frame's run ends with every unscoped buffer of every core at the last boundary's contents `W6`. The frame keeps
the six arguments of that; here the result buffer is kept as well, still as the fold `W6` at `main_v51`. -/

-- the launch theorem's implicit arguments are found by unifying its conclusion with this one, which takes unfolding
-- plain definitions in a metavariable's type
set_option backward.isDefEq.respectTransparency.types false in
/-- Every weakly fair execution of the program ends, without a fault, with the result buffer at the last boundary's
    contents and the six argument arrays as launched. -/
theorem run_named : θ_run defs (onTc (τ := τ) (main (F := Ideal))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-! ## The six argument arrays as launched -/

/-- Core `c`'s node features as launched: one row of 128 per node. -/
abbrev feat (c : Dev nD) : FVec Ideal S100000x128 .f32 := m ((c.tc : Thread nD τ).loc main_arg0)
/-- Core `c`'s edge words as launched: the row of sources over the row of targets. -/
abbrev edges (c : Dev nD) : IVec S2x1600000 32 := m ((c.tc : Thread nD τ).loc main_arg1)
/-- Core `c`'s first weight matrix as launched. -/
abbrev wgt1 (c : Dev nD) : FVec Ideal S128x128 .f32 := m ((c.tc : Thread nD τ).loc main_arg2)
/-- Core `c`'s first bias row as launched. -/
abbrev bias1 (c : Dev nD) : FVec Ideal S128 .f32 := m ((c.tc : Thread nD τ).loc main_arg3)
/-- Core `c`'s second weight matrix as launched. -/
abbrev wgt2 (c : Dev nD) : FVec Ideal S128x64 .f32 := m ((c.tc : Thread nD τ).loc main_arg4)
/-- Core `c`'s second bias row as launched. -/
abbrev bias2 (c : Dev nD) : FVec Ideal S64 .f32 := m ((c.tc : Thread nD τ).loc main_arg5)

/-! ## What each host stretch writes

A host operation writes its one result buffer and nothing else, so a stretch changes only the buffers on its list of
results: every other buffer leaves the stretch as it entered it. -/

/-- The buffers the first stretch writes: the two rows of edge words cut out and flattened, the nodes' numbers, the
    source and target words, and what the degree count and its inverse root go through. -/
abbrev written0 : List (Ref sig .tc) :=
  [main_v0, main_v1, main_v2, main_v3, main_v4, main_v5, main_v6, main_cst, main_v7, main_cst_0, main_v8, main_v9, main_v10,
    main_cst_1, main_v11, main_v12, main_v13, main_cst_2]
/-- The buffers the guarding select writes: its zero, the zero spread over the nodes, and the normalisation. -/
abbrev written1 : List (Ref sig .tc) := [main_call0_v0, main_call0_v1, main_v14]
/-- The buffers the first propagation writes. -/
abbrev written2 : List (Ref sig .tc) :=
  [main_v15, main_v16, main_v17, main_c, main_v18, main_v19, main_c_3, main_v20, main_v21, main_v22, main_v23, main_v24,
    main_cst_4, main_v25, main_v26, main_v27, main_v28, main_v29, main_v30]

/-- Every operation of the first stretch writes a buffer of `written0`. -/
theorem hostOps0_writes : (hostOps0 : List (HloOp τ sig (Elt Ideal))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every operation of the guarding select writes a buffer of `written1`. -/
theorem hostOps0_1_writes : (hostOps0_1 : List (HloOp τ sig (Elt Ideal))).Forall fun op =>
    op.writes ⊆ (written1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every operation of the first propagation writes a buffer of `written2`. -/
theorem hostOps0_2_writes : (hostOps0_2 : List (HloOp τ sig (Elt Ideal))).Forall fun op =>
    op.writes ⊆ (written2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! ## Each stretch of host operations, at any entry contents

A stretch's result buffer holds the stretch's operations composed, over the contents `V` the stretch was entered
with. Read at the buffers that matter later, that term is one of the specification's functions, given that the
buffers the stretch reads hold the specification's values. -/

section Stretches

variable (V : Valuation τ sig (Elt Ideal))

/-- After the first stretch `main_v5` holds the source words: the first row of the edge words, flattened, followed
    by the nodes' own numbers (one loop per node). -/
theorem first_src :
    StableHlo.after hostOps0 V (Proc.devRef .tc main_v5) = KSpec.srcW (V (Proc.devRef .tc main_arg1)) := by
  after_results
  rfl

/-- After the first stretch `main_v6` holds the target words: the second row of the edge words, flattened, followed
    by the nodes' own numbers. -/
theorem first_tgt :
    StableHlo.after hostOps0 V (Proc.devRef .tc main_v6) = KSpec.tgtW (V (Proc.devRef .tc main_arg1)) := by
  after_results
  rfl

/-- After the first stretch `main_v12` says where the degree is positive: ones added up at the target words give
    each node's degree, compared with zero. -/
theorem first_pos :
    StableHlo.after hostOps0 V (Proc.devRef .tc main_v12)
      = cmpf .ogt (KSpec.deg (V (Proc.devRef .tc main_arg1))) KSpec.zeros1 := by
  after_results
  rfl

/-- After the first stretch `main_v13` holds the degree's inverse square root, taken everywhere. -/
theorem first_rsqrt :
    StableHlo.after hostOps0 V (Proc.devRef .tc main_v13) = Host.rsqrt (KSpec.deg (V (Proc.devRef .tc main_arg1))) := by
  after_results
  rfl

/-- The first stretch ends by writing the zero the guarding select falls back to. -/
theorem first_zero :
    StableHlo.after hostOps0 V (Proc.devRef .tc main_cst_2) = constant (F := Ideal) S_ .f32 0x00000000#32 := by
  after_results

/-- The guarding select: entered with `p` in `main_v12`, `r` in `main_v13` and the zero in `main_cst_2`, it leaves in
    `main_v14` the array that is `r` where `p` holds and zero elsewhere. Stated for ANY `p` and `r`: the select does not
    look at how they were computed. -/
theorem guard_result (p : IVec S100000 1) (r : FVec Ideal S100000 .f32)
    (hp : V (Proc.devRef .tc main_v12) = p) (hr : V (Proc.devRef .tc main_v13) = r)
    (hz : V (Proc.devRef .tc main_cst_2) = constant (F := Ideal) S_ .f32 0x00000000#32) :
    StableHlo.after hostOps0_1 V (Proc.devRef .tc main_v14)
      = select p r (broadcastInDim S100000 ![] Facts₀.bcast_S_S100000 (id (constant (F := Ideal) S_ .f32 0x00000000#32))) := by
  after_results
  rw [hp, hr, hz]
  rfl

/-- The first propagation, entered with the normalisation, the source words and the target words of the edge words
    `e` in place, leaves `KSpec.head` of the features it finds: rows scaled, gathered at the sources, added up at the
    targets, and scaled again. -/
theorem head_result (e : IVec S2x1600000 32)
    (hn : V (Proc.devRef .tc main_v14) = KSpec.dinv e)
    (hs : V (Proc.devRef .tc main_v5) = KSpec.srcW e)
    (ht : V (Proc.devRef .tc main_v6) = KSpec.tgtW e) :
    StableHlo.after hostOps0_2 V (Proc.devRef .tc main_v30) = KSpec.head (V (Proc.devRef .tc main_arg0)) e := by
  after_results_simp
  rw [hn, hs, ht]
  rfl

/-- The last stretch, entered with the normalisation, the source words and the target words of the edge words `e` in
    place, leaves `KSpec.tail` of the 64-wide array it finds in `main_v32` and the bias row it finds in `main_arg5`:
    the second propagation, plus the bias on every row. -/
theorem tail_result (e : IVec S2x1600000 32)
    (hn : V (Proc.devRef .tc main_v14) = KSpec.dinv e)
    (hs : V (Proc.devRef .tc main_v5) = KSpec.srcW e)
    (ht : V (Proc.devRef .tc main_v6) = KSpec.tgtW e) :
    StableHlo.after hostOps2 V (Proc.devRef .tc main_v51)
      = KSpec.tail e (V (Proc.devRef .tc main_arg5)) (V (Proc.devRef .tc main_v32)) := by
  after_results_simp
  rw [hn, hs, ht]
  rfl

end Stretches

/-! ## The fold, read from the launch to the last boundary

`W0 … W6` are the buffer contents at the segment boundaries. Each lemma below says what one buffer holds at one
boundary, in terms of the argument arrays as launched. -/

/-! ### Up to the first region's entry -/

/-- A buffer none of the three leading stretches writes holds, at the first region's entry, what it was launched
    with. -/
theorem W3_of_unwritten (c : Dev nD) (r : Ref sig .tc) (h0 : r ∉ written0) (h1 : r ∉ written1) (h2 : r ∉ written2) :
    W3 m ρ c (Proc.devRef .tc r) = m ((c.tc : Thread nD τ).loc r) :=
  calc W3 m ρ c (Proc.devRef .tc r)
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c.tc : Thread nD τ).loc r) := rfl

/-- Before the first propagation the features are as launched. -/
theorem W2_feat (c : Dev nD) : W2 m ρ c (Proc.devRef .tc main_arg0) = feat m c :=
  calc W2 m ρ c (Proc.devRef .tc main_arg0)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = feat m c := rfl

/-- Before the first propagation `main_v14` holds the normalisation of the launched edge words: the guarding select
    finds the degree's positivity and its inverse square root where the first stretch left them, and `KSpec.dinv` is
    that select. -/
theorem W2_norm (c : Dev nD) : W2 m ρ c (Proc.devRef .tc main_v14) = KSpec.dinv (edges m c) :=
  guard_result (W1 m ρ c) (cmpf .ogt (KSpec.deg (edges m c)) KSpec.zeros1) (Host.rsqrt (KSpec.deg (edges m c)))
    (first_pos (W0 m ρ c)) (first_rsqrt (W0 m ρ c)) (first_zero (W0 m ρ c))

/-- Before the first propagation `main_v5` holds the source words: the guarding select does not write it. -/
theorem W2_src (c : Dev nD) : W2 m ρ c (Proc.devRef .tc main_v5) = KSpec.srcW (edges m c) :=
  calc W2 m ρ c (Proc.devRef .tc main_v5)
    _ = W1 m ρ c (Proc.devRef .tc main_v5) := StableHlo.after_of_writes_sub hostOps0_1 _ hostOps0_1_writes (by decide)
    _ = KSpec.srcW (edges m c) := first_src (W0 m ρ c)

/-- Before the first propagation `main_v6` holds the target words: the guarding select does not write it. -/
theorem W2_tgt (c : Dev nD) : W2 m ρ c (Proc.devRef .tc main_v6) = KSpec.tgtW (edges m c) :=
  calc W2 m ρ c (Proc.devRef .tc main_v6)
    _ = W1 m ρ c (Proc.devRef .tc main_v6) := StableHlo.after_of_writes_sub hostOps0_1 _ hostOps0_1_writes (by decide)
    _ = KSpec.tgtW (edges m c) := first_tgt (W0 m ρ c)

/-- At the first region's entry `main_v30` holds the first propagation of the launched features. -/
theorem W3_head (c : Dev nD) : W3 m ρ c (Proc.devRef .tc main_v30) = KSpec.head (feat m c) (edges m c) :=
  calc W3 m ρ c (Proc.devRef .tc main_v30)
    _ = KSpec.head (W2 m ρ c (Proc.devRef .tc main_arg0)) (edges m c) :=
          head_result (W2 m ρ c) (edges m c) (W2_norm m ρ c) (W2_src m ρ c) (W2_tgt m ρ c)
    _ = KSpec.head (feat m c) (edges m c) := by rw [W2_feat m ρ c]

/-- The first propagation writes neither the normalisation nor the index words: they reach the first region's
    entry. -/
theorem W3_norm (c : Dev nD) : W3 m ρ c (Proc.devRef .tc main_v14) = KSpec.dinv (edges m c) :=
  (StableHlo.after_of_writes_sub hostOps0_2 _ hostOps0_2_writes (by decide)).trans (W2_norm m ρ c)
theorem W3_src (c : Dev nD) : W3 m ρ c (Proc.devRef .tc main_v5) = KSpec.srcW (edges m c) :=
  (StableHlo.after_of_writes_sub hostOps0_2 _ hostOps0_2_writes (by decide)).trans (W2_src m ρ c)
theorem W3_tgt (c : Dev nD) : W3 m ρ c (Proc.devRef .tc main_v6) = KSpec.tgtW (edges m c) :=
  (StableHlo.after_of_writes_sub hostOps0_2 _ hostOps0_2_writes (by decide)).trans (W2_tgt m ρ c)

/-! ### Through the two regions -/

/-- A buffer that is an array of neither region leaves the second region as it entered the first. -/
theorem W5_of_outside (c : Dev nD) (b : Ref sig .tc) (h0 : ∀ w, Pipeline.arrRef spec0 w ≠ b)
    (h1 : ∀ w, Pipeline.arrRef spec1 w ≠ b) :
    W5 m ρ c (Proc.devRef .tc b) = W3 m ρ c (Proc.devRef .tc b) :=
  (W5_of_ne m ρ c b h1).trans (W4_of_ne m ρ c b h0)

/-- After the first region `main_v31` holds the first dense layer of the first propagation: the region's output
    array is the dense layer of the arrays the region was entered with, and those are the propagation, the first
    weight and the first bias. -/
theorem W4_hidden (c : Dev nD) :
    W4 m ρ c (Proc.devRef .tc main_v31) = Dense.affine (KSpec.head (feat m c) (edges m c)) (wgt1 m c) (bias1 m c) :=
  calc W4 m ρ c (Proc.devRef .tc main_v31)
    _ = (dat0 (V3 m ρ) c).arrAt 3 cfg0.N := W4_arr m ρ c 3
    _ = Dense.affine (W3 m ρ c (Proc.devRef .tc main_v30)) (W3 m ρ c (Proc.devRef .tc main_arg2))
          (W3 m ρ c (Proc.devRef .tc main_arg3)) := KBlocks.region0_array (V3 m ρ) c
    _ = Dense.affine (KSpec.head (feat m c) (edges m c)) (wgt1 m c) (bias1 m c) := by
          rw [W3_head m ρ c, W3_of_unwritten m ρ c main_arg2 (by decide) (by decide) (by decide),
            W3_of_unwritten m ρ c main_arg3 (by decide) (by decide) (by decide)]

/-- The second weight is no array of the first region and no stretch before it writes it: the second region finds it
    as launched. -/
theorem W4_wgt2 (c : Dev nD) : W4 m ρ c (Proc.devRef .tc main_arg4) = wgt2 m c :=
  (W4_of_ne m ρ c main_arg4 (by decide)).trans (W3_of_unwritten m ρ c main_arg4 (by decide) (by decide) (by decide))

/-- After the second region `main_v32` holds the 64-wide product: the hidden rows times the second weight. -/
theorem W5_product (c : Dev nD) :
    W5 m ρ c (Proc.devRef .tc main_v32)
      = Dense.project (Dense.affine (KSpec.head (feat m c) (edges m c)) (wgt1 m c) (bias1 m c)) (wgt2 m c) :=
  calc W5 m ρ c (Proc.devRef .tc main_v32)
    _ = (dat1 (V4 m ρ) c).arrAt 2 cfg1.N := W5_arr m ρ c 2
    _ = Dense.project (W4 m ρ c (Proc.devRef .tc main_v31)) (W4 m ρ c (Proc.devRef .tc main_arg4)) :=
          KBlocks.region1_array (V4 m ρ) c
    _ = Dense.project (Dense.affine (KSpec.head (feat m c) (edges m c)) (wgt1 m c) (bias1 m c)) (wgt2 m c) := by
          rw [W4_hidden m ρ c, W4_wgt2 m ρ c]

/-- The last bias row reaches the last stretch as launched. -/
theorem W5_bias2 (c : Dev nD) : W5 m ρ c (Proc.devRef .tc main_arg5) = bias2 m c :=
  (W5_of_outside m ρ c main_arg5 (by decide) (by decide)).trans
    (W3_of_unwritten m ρ c main_arg5 (by decide) (by decide) (by decide))

/-! ### The last stretch -/

/-- At the last boundary the result buffer holds `KSpec.out` of the six argument arrays as launched: the last
    stretch finds the normalisation and the index words where the first stretches left them (no region touches them),
    the 64-wide product in `main_v32` and the last bias as launched. -/
theorem W6_result (c : Dev nD) :
    W6 m ρ c (Proc.devRef .tc main_v51)
      = KSpec.out (feat m c) (edges m c) (wgt1 m c) (bias1 m c) (wgt2 m c) (bias2 m c) :=
  calc W6 m ρ c (Proc.devRef .tc main_v51)
    _ = KSpec.tail (edges m c) (W5 m ρ c (Proc.devRef .tc main_arg5)) (W5 m ρ c (Proc.devRef .tc main_v32)) :=
          tail_result (W5 m ρ c) (edges m c)
            ((W5_of_outside m ρ c main_v14 (by decide) (by decide)).trans (W3_norm m ρ c))
            ((W5_of_outside m ρ c main_v5 (by decide) (by decide)).trans (W3_src m ρ c))
            ((W5_of_outside m ρ c main_v6 (by decide) (by decide)).trans (W3_tgt m ρ c))
    _ = KSpec.tail (edges m c) (bias2 m c)
          (Dense.project (Dense.affine (KSpec.head (feat m c) (edges m c)) (wgt1 m c) (bias1 m c)) (wgt2 m c)) := by
          rw [W5_bias2 m ρ c, W5_product m ρ c]
    _ = KSpec.out (feat m c) (edges m c) (wgt1 m c) (bias1 m c) (wgt2 m c) (bias2 m c) := rfl

/-! ## The run -/

/-- Every weakly fair execution of the program ends, without a fault, with the result buffer at `KSpec.out` of the
    six argument arrays as launched, and with those arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51)
          = KSpec.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_result m ρ c), (h c).2⟩) (run_named m ρ)

end Cert.KernelIdeal.KRun

end
-- ==== Proof.KValue.lean ====
/-
  The kernel's program on real entries.

  When the float arguments hold real numbers the program's result `KSpec.out` is a real array. Its propagation scales row
  `n` by the real column `D n`, gathers and adds up, and scales by `D n` again; on real entries that is the propagation with
  the edges' weights `D (s e) · D (t e)` (`NormHop.scaled_gatherSum_eq_step`: every edge that lands on a row reads that row
  as its target, `lands`). The second propagation acts on the 64-wide product and commutes with it
  (`NormHop.stepReal_contract`), so the result is `twoLayer`: two layers of "propagate, then a dense layer with a bias".
-/
import proofs.«111670_j49134425867022_2_alg».proof.Proof.KSpec
import proofs.«111670_j49134425867022_2_alg».proof.Proof.LibNormHop

noncomputable section

namespace Cert.KernelIdeal.KValue

open Cert.KernelIdeal Cert.KernelIdeal.Facts₀ Cert.KernelIdeal.KSpec Idealize.ShloMosaic Idealize.ShloMosaic.ValueIdx
open Cert.Lib.RowOps Cert.Lib.RealSum Cert.Lib.Propagate Cert.Lib.Dense Cert.Lib.NormHop

theorem hN : 0 < 100000 := by decide

/-- The target words as a gather would read them: a negative one moved up by the number of nodes; as a column. The program
    never gathers at them; they name the row whose normalisation an edge's weight takes. -/
def rowT (a1 : IVec S2x1600000 32) : IVec S1700000x1 32 :=
  broadcastInDim S1700000x1 ![0] bcast_S1700000_S1700000x1_0
    (select (cmpi .slt (tgtW a1) (broadcastInDim S1700000 ![] bcast_S_S1700000 (constantI S_ 32 0#32)))
      (addi (tgtW a1) (broadcastInDim S1700000 ![] bcast_S_S1700000 (constantI S_ 32 100000#32))) (tgtW a1))

variable (a1 : IVec S2x1600000 32)

/-- An edge landing on row `n` reads row `n` as its target. -/
theorem lands (e : Fin 1700000) (n : Fin 100000) (h : (colI a1 (ix2 e 0)).toInt = (n.val : Int)) :
    clampRow hN (rowT a1) e = n :=
  clampRow_wrapped_of_lands hN bcast_S_S1700000 bcast_S1700000_S1700000x1_0 (tgtW a1) 100000#32 e n h

/-- Rows of a real 128-wide array gathered and added up. -/
theorem gatherSum128_real (r : S100000x128.Idx → ℝ) :
    gatherSum128 a1 (fun x => (r x : EReal)) = fun x => ((gatherSum hN (rowI a1) (colI a1) r x : ℝ) : EReal) :=
  host_gatherSum hN gather_S100000x128_S1700000x1_S1700000x128_1_0_n_n_0_1_1128_wf
    scatter_S100000x128_S1700000x1_S1700000x128_1_0_0_1_wf _ _ rfl rfl _ _ _ (fun i => zeros_apply _ i) r

/-- Rows of a real 64-wide array gathered and added up. -/
theorem gatherSum64_real (r : S100000x64.Idx → ℝ) :
    gatherSum64 a1 (fun x => (r x : EReal)) = fun x => ((gatherSum hN (rowI a1) (colI a1) r x : ℝ) : EReal) :=
  host_gatherSum hN gather_S100000x64_S1700000x1_S1700000x64_1_0_n_n_0_1_164_wf
    scatter_S100000x64_S1700000x1_S1700000x64_1_0_0_1_wf _ _ rfl rfl _ _ _ (fun i => zeros_apply _ i) r

variable (D : Fin 100000 → ℝ) (hD : ∀ n, dinv a1 (ix1 n) = (D n : EReal))
include hD

/-- A real 128-wide array times the normalisation spread along its rows. -/
theorem scale128_real (r : S100000x128.Idx → ℝ) :
    mulf (fun x => (r x : EReal)) (spread128 (dinv a1)) = fun x => ((r x * D (⟨(x 0).val, idx2_lt0 x⟩ : Fin 100000) : ℝ) : EReal) :=
  mul_spread_real (by decide) _ _ (dinv a1) D hD r

/-- A real 64-wide array times the normalisation spread along its rows. -/
theorem scale64_real (r : S100000x64.Idx → ℝ) :
    mulf (fun x => (r x : EReal)) (spread64 (dinv a1)) = fun x => ((r x * D (⟨(x 0).val, idx2_lt0 x⟩ : Fin 100000) : ℝ) : EReal) :=
  mul_spread_real (by decide) _ _ (dinv a1) D hD r

/-- One propagation of a real 128-wide array: the propagation with the edges' weights. -/
theorem propagate128_real (r : S100000x128.Idx → ℝ) :
    mulf (gatherSum128 a1 (mulf (fun x => (r x : EReal)) (spread128 (dinv a1)))) (spread128 (dinv a1))
      = fun x => ((stepReal hN (rowI a1) (colI a1) (edgeCoef hN (rowI a1) (rowT a1) D) r x : ℝ) : EReal) := by
  rw [scale128_real a1 D hD r, gatherSum128_real a1, scale128_real a1 D hD]
  exact congrArg (fun (g : S100000x128.Idx → ℝ) => fun x => ((g x : ℝ) : EReal))
    (scaled_gatherSum_eq_step hN (rowI a1) (rowT a1) (colI a1) D (lands a1) r)

/-- One propagation of a real 64-wide array. -/
theorem propagate64_real (r : S100000x64.Idx → ℝ) :
    mulf (gatherSum64 a1 (mulf (fun x => (r x : EReal)) (spread64 (dinv a1)))) (spread64 (dinv a1))
      = fun x => ((stepReal hN (rowI a1) (colI a1) (edgeCoef hN (rowI a1) (rowT a1) D) r x : ℝ) : EReal) := by
  rw [scale64_real a1 D hD r, gatherSum64_real a1, scale64_real a1 D hD]
  exact congrArg (fun (g : S100000x64.Idx → ℝ) => fun x => ((g x : ℝ) : EReal))
    (scaled_gatherSum_eq_step hN (rowI a1) (rowT a1) (colI a1) D (lands a1) r)

variable (xr : S100000x128.Idx → ℝ) (w1r : S128x128.Idx → ℝ) (w2r : S128x64.Idx → ℝ)
  (b1 : FVec Ideal S128 .f32) (β1 : Fin 128 → ℝ) (hb1 : ∀ j, b1 (ix1 j) = (β1 j : EReal))
  (b2 : FVec Ideal S64 .f32) (β2 : Fin 64 → ℝ) (hb2 : ∀ j, b2 (ix1 j) = (β2 j : EReal))

include hb1 hb2 in
/-- The program's result on real arguments is the real array `twoLayer`. -/
theorem out_real :
    KSpec.out (fun x => (xr x : EReal)) a1 (fun x => (w1r x : EReal)) b1 (fun x => (w2r x : EReal)) b2
      = fun y => ((twoLayer hN (rowI a1) (rowT a1) (colI a1) D xr w1r β1 w2r β2 y : ℝ) : EReal) := by
  unfold KSpec.out KSpec.tail KSpec.head
  rw [propagate128_real a1 D hD xr, affine_real _ _ b1 β1 hb1, project_real, propagate64_real a1 D hD, stepReal_contract,
    add_biasRows_real _ _ b2 β2 hb2]
  rfl

end Cert.KernelIdeal.KValue

end
-- ==== Proof.Finite.lean ====
/-
  The precondition says every float argument is an array of real numbers.

  `finite_inputs` is the conjunction, over the five float arguments, of "every entry's absolute value is below +∞". On the
  extended reals an entry with `|x| < +∞` is neither infinity, hence a real number.

  The reading goes from the inside out:
    * the f32 word `0x7F800000` denotes `⊤` (`ofBits_inf`);
    * `|x| = max x (-x) < ⊤` forces `x` to be a real, since `|⊥| = |⊤| = ⊤` (`isReal_of_abs_lt_top`);
    * so the precondition's test `|x| < +∞`, being the one-bit word 1 at an entry, says that entry is real (`isReal_of_test`);
    * a reduction by `and` over all axes that came out 1 met a 1 at every entry, so one true `jnp.all(|v| < +∞)` makes
      every entry of `v` real (`reals_of_all`), whatever the shape of `v`;
    * the precondition is the `and` of five of these, one per float argument (`reals_of_pre`).
-/
import proofs.«111670_j49134425867022_2_alg».proof.Proof.Gen.Pre_finite_inputs
import proofs.«111670_j49134425867022_2_alg».proof.Proof.LibRealSum
import Idealize.ShloMosaic.Lib.ReduceAll
import Idealize.ShloMosaic.Lib.ValueIdx

noncomputable section

namespace Cert.Pre_finite_inputs.Finite

open Cert.Pre_finite_inputs Idealize.ShloMosaic Cert.Lib.RealSum

/-- The f32 word `0x7F800000` — sign 0, exponent all ones, fraction 0 — denotes `+∞`. -/
theorem ofBits_inf : Ideal.ofBits .f32 0x7F800000#32 = (⊤ : EReal) := by
  simp [Ideal.ofBits, Ideal.ieee]

/-- An extended real whose absolute value `max x (-x)` lies strictly below `+∞` is a real number: the absolute value of
    either infinity is `max ⊥ ⊤ = ⊤`, which is not below `⊤`. -/
theorem isReal_of_abs_lt_top {x : EReal} (h : max x (-x) < ⊤) : IsReal x := by
  induction x using EReal.rec with
  | bot => exact absurd h (by simp)
  | coe r => exact ⟨r, rfl⟩
  | top => exact absurd h (by simp)

/-- The one-bit word of a Boolean is 1 exactly when the Boolean is true. -/
theorem ofBool_eq_one {b : Bool} : BitVec.ofBool b = 1#1 ↔ b = true := by cases b <;> decide

/-- The precondition's test at one entry: if "the absolute value of `x` compares below the word `0x7F800000`" is the word 1, then
    `x` is a real number. The comparison is the order's `<`, the absolute value is `max x (-x)`, the word is `⊤`. -/
theorem isReal_of_test {x : EReal}
    (h : FloatOps.cmpf (F := Ideal) (φ := .f32) .olt (FloatOps.hostAbsf (F := Ideal) (φ := .f32) x)
          (Ideal.ofBits .f32 0x7F800000#32) = 1#1) : IsReal x := by
  rw [ofBits_inf] at h
  have hlt : decide (max x (-x) < (⊤ : EReal)) = true := ofBool_eq_one.1 h
  exact isReal_of_abs_lt_top (of_decide_eq_true hlt)

/-- The shape of a scalar has exactly one index: an index is a function out of the empty set of axes. -/
instance : Subsingleton S_.Idx := ⟨fun a b => funext fun d => d.elim0⟩

/-- `jnp.all(|v| < +∞)` read back, at any shape: if the reduction by `and`, over all axes and from the constant 1, of the
    entrywise test "`|v i|` is below the broadcast `+∞` word" is 1, then every entry of `v` is a real number. Only the one
    entry `i` asked about is ever looked at. -/
theorem reals_of_all {s : Shape} {axes : List (Fin s.rank)} (v : FVec Ideal s .f32) (hb : S_.BroadcastsInDim s ![])
    (hr : s.ReducesTo axes S_) (hu : 0 < S_.numel)
    (e : Host.reduce IntOp.andi
          (cmpf .olt (Host.absf v) (broadcastInDim s ![] hb (constant S_ .f32 0x7F800000#32)))
          (constantI S_ 1 1#1) hr hu ValueIdx.ix0 = 1#1) (i : s.Idx) : IsReal (v i) := by
  have hi := Host.reduce_andi_all _ _ hr hu ValueIdx.ix0 e i
  exact isReal_of_test hi

/-- The entrywise `and` of two arrays of one-bit words is 1 at an index exactly when both arrays are 1 there. -/
theorem andi_apply_eq_one {s : Shape} (a b : IVec s 1) (i : s.Idx) : andi a b i = 1#1 ↔ a i = 1#1 ∧ b i = 1#1 :=
  IntOp.andi_eq_one

/-- Under the precondition each of the five float arguments has only real entries. -/
theorem reals_of_pre (x0 : FVec Ideal S100000x128 .f32) (a1 : IVec S2x1600000 32) (w1 : FVec Ideal S128x128 .f32)
    (b1 : FVec Ideal S128 .f32) (w2 : FVec Ideal S128x64 .f32) (b2 : FVec Ideal S64 .f32)
    (h : Cert.Pre_finite_inputs.fn (F := Ideal) x0 a1 w1 b1 w2 b2 = fun _ => 1#1) :
    (∀ i, IsReal (x0 i)) ∧ (∀ i, IsReal (w1 i)) ∧ (∀ i, IsReal (b1 i)) ∧ (∀ i, IsReal (w2 i)) ∧ (∀ i, IsReal (b2 i)) := by
  -- the scalar result, read at its one index, with the definition's chain of `let`s opened: an `and` of five reductions
  have e := congrFun h ValueIdx.ix0
  dsimp only [fn, fn_part1] at e
  -- the `and`s associate to the left, ((((x0 ∧ w1) ∧ b1) ∧ w2) ∧ b2): peel the conjuncts off from the right
  obtain ⟨e, hb2⟩ := (andi_apply_eq_one _ _ _).1 e
  obtain ⟨e, hw2⟩ := (andi_apply_eq_one _ _ _).1 e
  obtain ⟨e, hb1⟩ := (andi_apply_eq_one _ _ _).1 e
  obtain ⟨hx0, hw1⟩ := (andi_apply_eq_one _ _ _).1 e
  -- each conjunct is one `jnp.all(|v| < +∞)`
  exact ⟨reals_of_all x0 _ _ _ hx0, reals_of_all w1 _ _ _ hw1, reals_of_all b1 _ _ _ hb1, reals_of_all w2 _ _ _ hw2,
    reals_of_all b2 _ _ _ hb2⟩

end Cert.Pre_finite_inputs.Finite

end
-- ==== Proof.lean ====
/-
  Two layers of a normalised graph propagation, as the kernel's program computes them and as the reference does.

  Both programs build, from the edge words, the same index columns (source rows `s`, target rows `t`, with one loop per node)
  and the same normalisation column `dinv = deg ^ (-1/2)` (zero where `deg` is not positive). The reference weights edge `e` by
  `dinv (s e) · dinv (t e)`, gathers the source rows, multiplies by the weights, adds the rows up at their targets, and applies a
  dense layer `· W + b`; it does this twice. The kernel's program instead multiplies row `n` by `dinv n` BEFORE the gather and
  the sum's row `n` by `dinv n` AFTER it, and in the second layer multiplies by `W2` before propagating and adds `b2` after.
  The dense layers run as two tiled regions, each block of 5000 rows times the whole weight.

  At the exact (extended-real) values the two agree whenever the float arguments are finite: every array in sight is then
  an array of real numbers, and on real entries `dinv (t e)` factors out of the sum over the edges landing on a row, and a
  propagation — a linear combination of rows, column by column — commutes with a product by a matrix on the columns. So
  both results are the one real array `NormHop.twoLayer` (`RefValue.out_real`, `KValue.out_real`), the index columns and the
  normalisation being the same functions of the edge words on both sides. Finiteness is what the precondition gives
  (`Finite.reals_of_pre`); without it a product does not distribute over the extended reals' sums.
-/
import proofs.«111670_j49134425867022_2_alg».proof.Defs
import proofs.«111670_j49134425867022_2_alg».proof.Proof.Gen.Kernel
import proofs.«111670_j49134425867022_2_alg».proof.Proof.Gen.Kernel.Frame
import proofs.«111670_j49134425867022_2_alg».proof.Proof.Gen.KernelIdeal
import proofs.«111670_j49134425867022_2_alg».proof.Proof.Gen.KernelIdeal.Frame
import proofs.«111670_j49134425867022_2_alg».proof.Proof.Gen.ReferenceIdeal
import proofs.«111670_j49134425867022_2_alg».proof.Proof.Gen.Pre_finite_inputs
import proofs.«111670_j49134425867022_2_alg».proof.Proof.RefRunPatched
import proofs.«111670_j49134425867022_2_alg».proof.Proof.RefValue
import proofs.«111670_j49134425867022_2_alg».proof.Proof.KRun
import proofs.«111670_j49134425867022_2_alg».proof.Proof.KValue
import proofs.«111670_j49134425867022_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel's program runs and leaves its arguments as they were. -/
theorem frame_kernel : Cert.frame_Kernel := fun m ρ _ => Cert.Kernel.Gen.frame m ρ

/-- So does the program read at the exact values. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Reading the program at the exact values rewrote no operation. -/
theorem preserves : Cert.preserves_Kernel_KernelIdeal := trivial

/-- On finite float arguments the reference's result function and the kernel program's are the same array: both are the
    real array `twoLayer` of the arguments' real entries, over the same index columns and the same normalisation. -/
theorem out_eq (x0 : FVec Ideal Cert.KernelIdeal.S100000x128 .f32) (a1 : IVec Cert.KernelIdeal.S2x1600000 32)
    (w1 : FVec Ideal Cert.KernelIdeal.S128x128 .f32) (b1 : FVec Ideal Cert.KernelIdeal.S128 .f32)
    (w2 : FVec Ideal Cert.KernelIdeal.S128x64 .f32) (b2 : FVec Ideal Cert.KernelIdeal.S64 .f32)
    (h : Cert.Pre_finite_inputs.fn (F := Ideal) x0 a1 w1 b1 w2 b2 = fun _ => 1#1) :
    Cert.ReferenceIdeal.RSpec.out x0 a1 w1 b1 w2 b2 = Cert.KernelIdeal.KSpec.out x0 a1 w1 b1 w2 b2 := by
  obtain ⟨hx, hw1, hb1, hw2, hb2⟩ := Cert.Pre_finite_inputs.Finite.reals_of_pre x0 a1 w1 b1 w2 b2 h
  choose xr hxr using hx
  choose w1r hw1r using hw1
  choose β1 hβ1 using hb1
  choose w2r hw2r using hw2
  choose β2 hβ2 using hb2
  obtain ⟨D, hD⟩ := Cert.ReferenceIdeal.RefValue.dinv_real a1
  obtain rfl : x0 = fun x => (xr x : EReal) := funext hxr
  obtain rfl : w1 = fun x => (w1r x : EReal) := funext hw1r
  obtain rfl : w2 = fun x => (w2r x : EReal) := funext hw2r
  rw [Cert.ReferenceIdeal.RefValue.out_real (a1 := a1) (D := D) (hD := hD) (xr := xr) (w1r := w1r) (w2r := w2r)
      (b1 := b1) (β1 := fun j => β1 (ix1 j)) (hb1 := fun j => hβ1 (ix1 j)) (b2 := b2) (β2 := fun j => β2 (ix1 j)) (hb2 := fun j => hβ2 (ix1 j)),
    Cert.KernelIdeal.KValue.out_real (a1 := a1) (D := D) (hD := hD) (xr := xr) (w1r := w1r) (w2r := w2r)
      (b1 := b1) (β1 := fun j => β1 (ix1 j)) (hb1 := fun j => hβ1 (ix1 j)) (b2 := b2) (β2 := fun j => β2 (ix1 j)) (hb2 := fun j => hβ2 (ix1 j))]
  rfl

/-- From memories agreeing on the arguments both programs run, and end with equal results: the kernel program's result is
    `KSpec.out` of its arguments, the reference's `RSpec.out` of the same arguments, and those agree under the precondition. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RSpec.res_eq, (hagree c).1, (hagree c).2.1, (hagree c).2.2.1, (hagree c).2.2.2.1,
    (hagree c).2.2.2.2.1, (hagree c).2.2.2.2.2]
  exact out_eq _ _ _ _ _ _ (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
